-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x32 .f32) (main_arg1 : IVec S2x1600000 32) (main_arg2 : FVec F S32x64 .f32) (main_arg3 : FVec F S64 .f32) (main_arg4 : FVec F S64x8 .f32) (main_arg5 : FVec F S8 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg4
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg5 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x32 : Shape := ⟨2, ![1700000, 32]⟩
abbrev S1x64 : Shape := ⟨2, ![1, 64]⟩
abbrev S1x8 : Shape := ⟨2, ![1, 8]⟩
abbrev S100000x8 : Shape := ⟨2, ![100000, 8]⟩
abbrev S5000x32 : Shape := ⟨2, ![5000, 32]⟩
abbrev S5000x8 : Shape := ⟨2, ![5000, 8]⟩
abbrev S5000x64 : Shape := ⟨2, ![5000, 64]⟩

abbrev nBuf : Space → Nat
  | .hbm => 48
  | .vmem => 8
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x32, .f32⟩
  | .hbm, ⟨28, _⟩ => ⟨S100000x32, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x32, .f32⟩
  | .hbm, ⟨38, _⟩ => ⟨S_, .f32⟩
  | .hbm, ⟨39, _⟩ => ⟨S100000x32, .f32⟩
  | .hbm, ⟨40, _⟩ => ⟨S1700000x1, .i32⟩
  | .hbm, ⟨41, _⟩ => ⟨S100000x32, .f32⟩
  | .hbm, ⟨42, _⟩ => ⟨S100000x1, .f32⟩
  | .hbm, ⟨43, _⟩ => ⟨S100000x32, .f32⟩
  | .hbm, ⟨44, _⟩ => ⟨S100000x32, .f32⟩
  | .hbm, ⟨45, _⟩ => ⟨S1x64, .f32⟩
  | .hbm, ⟨46, _⟩ => ⟨S1x8, .f32⟩
  | .hbm, ⟨47, _⟩ => ⟨S100000x8, .f32⟩
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S1x64, .f32⟩
  | .local _ .vmem, ⟨4, _⟩ => ⟨S64x8, .f32⟩
  | .local _ .vmem, ⟨5, _⟩ => ⟨S1x8, .f32⟩
  | .local _ .vmem, ⟨6, _⟩ => ⟨S5000x8, .f32⟩
  | .local _ .vmem, ⟨7, _⟩ => ⟨S5000x8, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  shapeCasts_S64_S1x64 : S64.ShapeCasts S1x64
  shapeCasts_S8_S1x8 : S8.ShapeCasts S1x8
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  scatter_S100000_S1700000x1_S1700000_n_0_0_1_wf : ScatterDims.WF S100000 S1700000x1 S1700000 [] [0] [0] 1
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x64_S5000x64_1_0_0_1_n_n_wf : DotDims.WF S5000x32 S32x64 S5000x64 [1] [0] [0] [1] [] []
  dot_S5000x64_S64x8_S5000x8_1_0_0_1_n_n_wf : DotDims.WF S5000x64 S64x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x8.size a ≤ S64x8.size a
  hwx0_3 : ∀ i : grid0.Coords, EltTy.bits .f32 = 32 ∨ (Rect.block (s := S64x8) S64x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x8.size a ≤ S100000x8.size a
  hwx0_5 : ∀ i : grid0.Coords, EltTy.bits .f32 = 32 ∨ (Rect.block (s := S100000x8) S5000x8.size (cc0_transform_5 i) (hinb0_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf

abbrev win0_0 : Pipeline.Window sig grid0 :=
  Pipeline.Window.ofSpec (Memref.whole main_v31) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S5000x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x8 : Shape := ⟨2, ![100000, 8]⟩
abbrev S1x8 : Shape := ⟨2, ![1, 8]⟩

abbrev nBuf : Space → Nat
  | .hbm => 70
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x1, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x8, .f32⟩
  | .hbm, ⟨67, _⟩ => ⟨S1x8, .f32⟩
  | .hbm, ⟨68, _⟩ => ⟨S100000x8, .f32⟩
  | .hbm, ⟨69, _⟩ => ⟨S100000x8, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x8_S100000x8_1_0_0_1_n_n_wf : DotDims.WF S100000x64 S64x8 S100000x8 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf

class Facts : Prop extends Facts₀ where

variable [Facts]
-- ==== Proof.Spec.lean ====
/-
  The two-layer network applied to every node, as functions on extended-real arrays, index by index.

  With `a` the aggregated, normalised features of the nodes (one row of 32 numbers per node), the hidden layer of node
  `n` is `h n j = (∑ k, a n k · W1 k j) + b1 j` and the output is `(∑ j, tanh (h n j) · W2 j q) + b2 q`.  The output
  layer is stated over an arbitrary hidden array, so that two programs which reach the same hidden array by different
  routes are compared on the hidden array alone.
-/
import Idealize.ShloMosaic.PureOps.Ideal
import Idealize.ShloMosaic.Lib.ValueIdx

noncomputable section

open scoped BigOperators

namespace Cert.Gcn

open Idealize.ShloMosaic Idealize.ShloMosaic.ValueIdx

/-- The hidden layer before the activation, at node `n` and hidden unit `j`: row `n` of `a` against column `j` of
    `w1`, plus the bias. -/
def hiddenAt (a : (⟨2, ![100000, 32]⟩ : Shape).Idx → EReal) (w1 : (⟨2, ![32, 64]⟩ : Shape).Idx → EReal)
    (b1 : (⟨1, ![64]⟩ : Shape).Idx → EReal) (n : Fin 100000) (j : Fin 64) : EReal :=
  (∑ k : Fin 32, a (ix2 n k) * w1 (ix2 k j)) + b1 (ix1 j)

/-- The hidden layer before the activation, as an array. -/
def hidden (a : (⟨2, ![100000, 32]⟩ : Shape).Idx → EReal) (w1 : (⟨2, ![32, 64]⟩ : Shape).Idx → EReal)
    (b1 : (⟨1, ![64]⟩ : Shape).Idx → EReal) : (⟨2, ![100000, 64]⟩ : Shape).Idx → EReal :=
  fun i => hiddenAt a w1 b1 (i 0) (i 1)

/-- The output layer at node `n` and output `q`: the activated hidden row against column `q` of `w2`, plus the bias. -/
def outputAt (h : (⟨2, ![100000, 64]⟩ : Shape).Idx → EReal) (w2 : (⟨2, ![64, 8]⟩ : Shape).Idx → EReal)
    (b2 : (⟨1, ![8]⟩ : Shape).Idx → EReal) (n : Fin 100000) (q : Fin 8) : EReal :=
  (∑ j : Fin 64, Ideal.tanh (h (ix2 n j)) * w2 (ix2 j q)) + b2 (ix1 q)

/-- The output layer, as an array. -/
def output (h : (⟨2, ![100000, 64]⟩ : Shape).Idx → EReal) (w2 : (⟨2, ![64, 8]⟩ : Shape).Idx → EReal)
    (b2 : (⟨1, ![8]⟩ : Shape).Idx → EReal) : (⟨2, ![100000, 8]⟩ : Shape).Idx → EReal :=
  fun i => outputAt h w2 b2 (i 0) (i 1)

theorem hidden_apply (a : (⟨2, ![100000, 32]⟩ : Shape).Idx → EReal) (w1 : (⟨2, ![32, 64]⟩ : Shape).Idx → EReal)
    (b1 : (⟨1, ![64]⟩ : Shape).Idx → EReal) (n : Fin 100000) (j : Fin 64) :
    hidden a w1 b1 (ix2 n j) = hiddenAt a w1 b1 n j := rfl

theorem output_apply (h : (⟨2, ![100000, 64]⟩ : Shape).Idx → EReal) (w2 : (⟨2, ![64, 8]⟩ : Shape).Idx → EReal)
    (b2 : (⟨1, ![8]⟩ : Shape).Idx → EReal) (n : Fin 100000) (q : Fin 8) :
    output h w2 b2 (ix2 n q) = outputAt h w2 b2 n q := rfl

end Cert.Gcn

end
-- ==== Proof.RefTail.lean ====
/-
  The last operations of the reference program, read as the output layer of the network.

  Write `g` for the aggregated array, one row of 64 numbers per node.  The reference adds the first bias along every
  row of `g`, applies `tanh` entrywise, multiplies by the second weight matrix and adds the second bias along every
  row.  Entry by entry this is the output layer `(∑ j, tanh (g n j + b1 j) · W2 j q) + b2 q` of the specification,
  taken at the hidden array `fun i => g i + b1 (i 1)`.
-/
import proofs.«165516_j472446402806_2_alg».proof.Proof.RefRead
import proofs.«165516_j472446402806_2_alg».proof.Proof.Spec

noncomputable section

open scoped BigOperators

namespace Cert.ReferenceIdeal.GcnTail

open Cert.ReferenceIdeal Idealize.ShloMosaic Idealize.ShloMosaic.ValueIdx

/-- Entry `(n, q)` of the last product reads its left operand at row `n`, column `k`. -/
theorem lidx_eq (n : Fin 100000) (q : Fin 8) (k : Fin 64) :
    ReadP.lidx_main_v49 (ix2 n q) k = ix2 n k :=
  funext fun a => Fin.ext (by match a with | ⟨0, _⟩ => rfl | ⟨1, _⟩ => rfl)

/-- Entry `(n, q)` of the last product reads its right operand at row `k`, column `q`. -/
theorem ridx_eq (n : Fin 100000) (q : Fin 8) (k : Fin 64) :
    ReadP.ridx_main_v49 (ix2 n q) k = ix2 k q :=
  funext fun a => Fin.ext (by match a with | ⟨0, _⟩ => rfl | ⟨1, _⟩ => rfl)

/-- The bias of length 64, broadcast along the rows, is read at the column of the entry. -/
theorem bias1_idx (n : Fin 100000) (k : Fin 64) :
    ReadP.idx_main_v45 (ReadP.idx_main_v46 (ix2 n k)) = ix1 k :=
  funext fun a => Fin.ext (by match a with | ⟨0, _⟩ => rfl)

/-- The bias of length 8, broadcast along the rows, is read at the column of the entry. -/
theorem bias2_idx (n : Fin 100000) (q : Fin 8) :
    ReadP.idx_main_v50 (ReadP.idx_main_v51 (ix2 n q)) = ix1 q :=
  funext fun a => Fin.ext (by match a with | ⟨0, _⟩ => rfl)

/-- The activated hidden array at node `n`, unit `k`: `tanh` of the aggregate plus the first bias. -/
theorem act_apply (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (n : Fin 100000) (k : Fin 64) :
    ReadP.val_main_v48 (F := Ideal) x0 x1 x2 x3 (ix2 n k)
      = Ideal.tanh (ReadP.val_main_v44 (F := Ideal) x0 x1 x2 (ix2 n k) + x3 (ix1 k)) := by
  rw [ReadP.val_main_v48_apply, ReadP.val_main_v47_apply, ReadP.val_main_v46_apply, ReadP.val_main_v45_apply, bias1_idx,
    Ideal.hostUnary_tanh_def, Ideal.addf_def]

/-- The reference's result at node `n`, output `q`. -/
theorem out_at (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S64x8, .f32⟩ : BufTy).Contents (Elt Ideal)) (x5 : (⟨S8, .f32⟩ : BufTy).Contents (Elt Ideal)) (n : Fin 100000) (q : Fin 8) :
    ReadP.val_main_v52 (F := Ideal) x0 x1 x2 x3 x4 x5 (ix2 n q)
      = Cert.Gcn.outputAt (fun i => ReadP.val_main_v44 (F := Ideal) x0 x1 x2 i + x3 (ix1 (i 1))) x4 x5 n q := by
  rw [ReadP.val_main_v52_apply, ReadP.val_main_v49_apply, ReadP.val_main_v51_apply, ReadP.val_main_v50_apply, bias2_idx,
    Ideal.addf_def]
  unfold Cert.Gcn.outputAt
  refine congrArg₂ (· + ·) (Finset.sum_congr rfl fun k _ => ?_) rfl
  rw [lidx_eq, ridx_eq, act_apply]

/-- The reference's result is the output layer at the hidden array "aggregate plus first bias". -/
theorem out_eq (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S64x8, .f32⟩ : BufTy).Contents (Elt Ideal)) (x5 : (⟨S8, .f32⟩ : BufTy).Contents (Elt Ideal)) :
    ReadP.val_main_v52 (F := Ideal) x0 x1 x2 x3 x4 x5
      = Cert.Gcn.output (fun i => ReadP.val_main_v44 (F := Ideal) x0 x1 x2 i + x3 (ValueIdx.ix1 (i 1))) x4 x5 := by
  funext i
  show _ = Cert.Gcn.outputAt _ x4 x5 (i 0) (i 1)
  exact (congrArg (ReadP.val_main_v52 (F := Ideal) x0 x1 x2 x3 x4 x5) (eq_ix2 i)).trans
    (out_at x0 x1 x2 x3 x4 x5 (i 0) (i 1))

end Cert.ReferenceIdeal.GcnTail

end
-- ==== Proof.Finite.lean ====
/-
  Finiteness of the inputs, out of the precondition.

  The precondition is the conjunction, over the float arguments, of "every entry `a` satisfies `|a| < +∞`".  On the
  extended reals `|a| = max a (-a)`, and `max a (-a) < ⊤` excludes both `a = ⊤` and `a = ⊥`, so every entry is a real
  number.  The statement is drawn for the node features and for the first weight matrix.
-/
import proofs.«165516_j472446402806_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Gcn.Finite

open Idealize.ShloMosaic

/-- The rank-0 shape has a single index. -/
instance : Subsingleton Cert.Pre_finite_inputs.S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- An extended real whose absolute value is below `+∞` is a real number. -/
theorem real_of_abs_lt_inf (a : EReal)
    (h : Ideal.cmp .olt (max a (-a)) (Ideal.ofBits .f32 0x7F800000#32) = 1#1) : ∃ r : ℝ, a = (r : EReal) := by
  rw [inf_word] at h
  have hlt : max a (-a) < ⊤ := by
    by_contra hn
    simp [Ideal.cmp, hn] at h
  induction a using EReal.rec with
  | bot => simp at hlt
  | coe r => exact ⟨r, rfl⟩
  | top => simp at hlt

/-- A conjunction of two one-bit arrays that is 1 at an index has both conjuncts 1 there. -/
theorem both_one {s : Shape} (a b : IVec s 1) (i : s.Idx) (h : andi a b i = 1#1) : a i = 1#1 ∧ b i = 1#1 :=
  IntOp.andi_eq_one.1 h

/-- One entry of the test `|x| < +∞`, the bound being a scalar constant broadcast to the shape of `x`. -/
theorem entry_real {s : Shape} (x : FVec Ideal s .f32)
    (hb : Cert.Pre_finite_inputs.S_.BroadcastsInDim s (![] : Fin 0 → Fin s.rank)) (i : s.Idx)
    (h : cmpf .olt (Host.absf x)
      (broadcastInDim s ![] hb (constant (F := Ideal) Cert.Pre_finite_inputs.S_ .f32 0x7F800000#32)) i = 1#1) :
    ∃ r : ℝ, x i = (r : EReal) := by
  refine real_of_abs_lt_inf (x i) ?_
  rw [ValueIdx.cmpf_apply, broadcastInDim_apply _ hb _ i ValueIdx.ix0 (fun a => a.elim0)] at h
  exact h

/-- Under the precondition every node feature and every entry of the first weight matrix is a real number. -/
theorem finite_of_pre [Cert.Pre_finite_inputs.Facts] (x0 : FVec Ideal Cert.Pre_finite_inputs.S100000x32 .f32) (x1 : IVec Cert.Pre_finite_inputs.S2x1600000 32) (x2 : FVec Ideal Cert.Pre_finite_inputs.S32x64 .f32) (x3 : FVec Ideal Cert.Pre_finite_inputs.S64 .f32) (x4 : FVec Ideal Cert.Pre_finite_inputs.S64x8 .f32) (x5 : FVec Ideal Cert.Pre_finite_inputs.S8 .f32)
    (h : Cert.Pre_finite_inputs.fn (F := Ideal) x0 x1 x2 x3 x4 x5 = fun _ => 1#1) :
    (∀ i, ∃ r : ℝ, x0 i = (r : EReal)) ∧ (∀ i, ∃ r : ℝ, x2 i = (r : EReal)) := by
  have h0 := congrFun h ValueIdx.ix0
  dsimp only [Cert.Pre_finite_inputs.fn, Cert.Pre_finite_inputs.fn_part1] at h0
  obtain ⟨h18, -⟩ := both_one _ _ _ h0
  obtain ⟨h13, -⟩ := both_one _ _ _ h18
  obtain ⟨h8, -⟩ := both_one _ _ _ h13
  obtain ⟨h3, h7⟩ := both_one _ _ _ h8
  exact ⟨fun i => entry_real x0 _ i (Host.reduce_andi_all _ _ _ _ _ h3 i),
    fun i => entry_real x2 _ i (Host.reduce_andi_all _ _ _ _ _ h7 i)⟩

end Cert.Gcn.Finite

end
-- ==== Proof.KernelBody.lean ====
/-
  The kernel body's arithmetic, read at one element.

  The body multiplies a block of 5000 feature rows by the first weight matrix into a zero accumulator, adds the first bias
  (held as one row and repeated down the block), applies tanh, multiplies by the second weight matrix into a zero
  accumulator and adds the second bias. Read at row `p` and output `q` this is
  `(∑ j, tanh ((∑ k, x p k · W1 k j) + b1 j) · W2 j q) + b2 q`: each product is a sum over its one contracted axis, and the
  narrowing format changes are the identity on extended reals.
-/
import proofs.«165516_j472446402806_2_alg».proof.Proof.Gen.KernelIdeal.Skeleton
import proofs.«165516_j472446402806_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.GcnValue

open Cert.KernelIdeal Cert.KernelIdeal.Gen Idealize.ShloMosaic Idealize.ShloMosaic.ValueIdx

theorem hiddenDot_lhs0 (i : S5000x64.Idx) (c : dot_S5000x32_S32x64_S5000x64_1_0_0_1_n_n.contr.Idx) :
    (dot_S5000x32_S32x64_S5000x64_1_0_0_1_n_n.lhsIdx i c 0).val = (i 0).val := by
  unfold DotDims.lhsIdx
  rw [dif_neg (show ¬(0 : Fin S5000x32.rank) ∈ dot_S5000x32_S32x64_S5000x64_1_0_0_1_n_n.lhsBatch by decide),
    dif_pos (show (0 : Fin S5000x32.rank) ∈ dot_S5000x32_S32x64_S5000x64_1_0_0_1_n_n.lhsNonContracting by decide)]
  rfl

theorem hiddenDot_lhs1 (i : S5000x64.Idx) (c : dot_S5000x32_S32x64_S5000x64_1_0_0_1_n_n.contr.Idx) :
    (dot_S5000x32_S32x64_S5000x64_1_0_0_1_n_n.lhsIdx i c 1).val = (c ⟨0, by decide⟩).val :=
  dot_S5000x32_S32x64_S5000x64_1_0_0_1_n_n.lhsIdx_val_of_single rfl i c

theorem hiddenDot_rhs0 (i : S5000x64.Idx) (c : dot_S5000x32_S32x64_S5000x64_1_0_0_1_n_n.contr.Idx) :
    (dot_S5000x32_S32x64_S5000x64_1_0_0_1_n_n.rhsIdx i c 0).val = (c ⟨0, by decide⟩).val :=
  dot_S5000x32_S32x64_S5000x64_1_0_0_1_n_n.rhsIdx_val_of_single rfl i c

theorem hiddenDot_rhs1 (i : S5000x64.Idx) (c : dot_S5000x32_S32x64_S5000x64_1_0_0_1_n_n.contr.Idx) :
    (dot_S5000x32_S32x64_S5000x64_1_0_0_1_n_n.rhsIdx i c 1).val = (i 1).val := by
  unfold DotDims.rhsIdx
  rw [dif_neg (show ¬(1 : Fin S32x64.rank) ∈ dot_S5000x32_S32x64_S5000x64_1_0_0_1_n_n.rhsBatch by decide),
    dif_pos (show (1 : Fin S32x64.rank) ∈ dot_S5000x32_S32x64_S5000x64_1_0_0_1_n_n.rhsNonContracting by decide)]
  rfl

/-- The first product into a zero accumulator, at row `p` and hidden unit `j`: row `p` of the left factor against
    column `j` of the right one. -/
theorem hiddenDot_apply (l : FVec Ideal S5000x32 .bf16) (r : FVec Ideal S32x64 .bf16) (p : Fin 5000) (j : Fin 64) :
    matmul dot_S5000x32_S32x64_S5000x64_1_0_0_1_n_n none l r (constant (F := Ideal) S5000x64 .f32 0x00000000#32) (ix2 p j)
      = ∑ k : Fin 32, l (ix2 p k) * r (ix2 k j) := by
  simp only [matmul]
  rw [Ideal.matmul_constant_zero_apply,
    ← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 p j)
      ((contrEquiv1 dot_S5000x32_S32x64_S5000x64_1_0_0_1_n_n 32 rfl rfl).symm k) = ix2 p k :=
    funext fun a => Fin.ext (by
      match a with
      | ⟨0, _⟩ => exact hiddenDot_lhs0 _ _
      | ⟨1, _⟩ => exact (hiddenDot_lhs1 _ _).trans hk)
  have er : dot_S5000x32_S32x64_S5000x64_1_0_0_1_n_n.rhsIdx (ix2 p j)
      ((contrEquiv1 dot_S5000x32_S32x64_S5000x64_1_0_0_1_n_n 32 rfl rfl).symm k) = ix2 k j :=
    funext fun a => Fin.ext (by
      match a with
      | ⟨0, _⟩ => exact (hiddenDot_rhs0 _ _).trans hk
      | ⟨1, _⟩ => exact hiddenDot_rhs1 _ _)
  rw [el, er]

theorem outputDot_lhs0 (i : S5000x8.Idx) (c : dot_S5000x64_S64x8_S5000x8_1_0_0_1_n_n.contr.Idx) :
    (dot_S5000x64_S64x8_S5000x8_1_0_0_1_n_n.lhsIdx i c 0).val = (i 0).val := by
  unfold DotDims.lhsIdx
  rw [dif_neg (show ¬(0 : Fin S5000x64.rank) ∈ dot_S5000x64_S64x8_S5000x8_1_0_0_1_n_n.lhsBatch by decide),
    dif_pos (show (0 : Fin S5000x64.rank) ∈ dot_S5000x64_S64x8_S5000x8_1_0_0_1_n_n.lhsNonContracting by decide)]
  rfl

theorem outputDot_lhs1 (i : S5000x8.Idx) (c : dot_S5000x64_S64x8_S5000x8_1_0_0_1_n_n.contr.Idx) :
    (dot_S5000x64_S64x8_S5000x8_1_0_0_1_n_n.lhsIdx i c 1).val = (c ⟨0, by decide⟩).val :=
  dot_S5000x64_S64x8_S5000x8_1_0_0_1_n_n.lhsIdx_val_of_single rfl i c

theorem outputDot_rhs0 (i : S5000x8.Idx) (c : dot_S5000x64_S64x8_S5000x8_1_0_0_1_n_n.contr.Idx) :
    (dot_S5000x64_S64x8_S5000x8_1_0_0_1_n_n.rhsIdx i c 0).val = (c ⟨0, by decide⟩).val :=
  dot_S5000x64_S64x8_S5000x8_1_0_0_1_n_n.rhsIdx_val_of_single rfl i c

theorem outputDot_rhs1 (i : S5000x8.Idx) (c : dot_S5000x64_S64x8_S5000x8_1_0_0_1_n_n.contr.Idx) :
    (dot_S5000x64_S64x8_S5000x8_1_0_0_1_n_n.rhsIdx i c 1).val = (i 1).val := by
  unfold DotDims.rhsIdx
  rw [dif_neg (show ¬(1 : Fin S64x8.rank) ∈ dot_S5000x64_S64x8_S5000x8_1_0_0_1_n_n.rhsBatch by decide),
    dif_pos (show (1 : Fin S64x8.rank) ∈ dot_S5000x64_S64x8_S5000x8_1_0_0_1_n_n.rhsNonContracting by decide)]
  rfl

/-- The second product into a zero accumulator, at row `p` and output `q`: row `p` of the left factor against
    column `q` of the right one. -/
theorem outputDot_apply (l : FVec Ideal S5000x64 .bf16) (r : FVec Ideal S64x8 .bf16) (p : Fin 5000) (q : Fin 8) :
    matmul dot_S5000x64_S64x8_S5000x8_1_0_0_1_n_n none l r (constant (F := Ideal) S5000x8 .f32 0x00000000#32) (ix2 p q)
      = ∑ j : Fin 64, l (ix2 p j) * r (ix2 j q) := by
  simp only [matmul]
  rw [Ideal.matmul_constant_zero_apply,
    ← Equiv.sum_comp (contrEquiv1 dot_S5000x64_S64x8_S5000x8_1_0_0_1_n_n 64 rfl rfl).symm]
  refine Finset.sum_congr rfl fun j _ => ?_
  have hj := contrEquiv1_symm_val dot_S5000x64_S64x8_S5000x8_1_0_0_1_n_n 64 rfl rfl j
  have el : dot_S5000x64_S64x8_S5000x8_1_0_0_1_n_n.lhsIdx (ix2 p q)
      ((contrEquiv1 dot_S5000x64_S64x8_S5000x8_1_0_0_1_n_n 64 rfl rfl).symm j) = ix2 p j :=
    funext fun a => Fin.ext (by
      match a with
      | ⟨0, _⟩ => exact outputDot_lhs0 _ _
      | ⟨1, _⟩ => exact (outputDot_lhs1 _ _).trans hj)
  have er : dot_S5000x64_S64x8_S5000x8_1_0_0_1_n_n.rhsIdx (ix2 p q)
      ((contrEquiv1 dot_S5000x64_S64x8_S5000x8_1_0_0_1_n_n 64 rfl rfl).symm j) = ix2 j q :=
    funext fun a => Fin.ext (by
      match a with
      | ⟨0, _⟩ => exact (outputDot_rhs0 _ _).trans hj
      | ⟨1, _⟩ => exact outputDot_rhs1 _ _)
  rw [el, er]

/-- THE BODY'S RESULT AT ROW `p` AND OUTPUT `q` of a block: the activated hidden row of the block's row `p` against
    column `q` of the second weight matrix, plus the second bias; the hidden row is the block's row against the first
    weight matrix plus the first bias. The format changes are the identity on extended reals. -/
theorem body_apply (x0 : Vec Ideal S5000x32 .f32) (x1 : Vec Ideal S32x64 .f32) (x2 : Vec Ideal S1x64 .f32)
    (x3 : Vec Ideal S64x8 .f32) (x4 : Vec Ideal S1x8 .f32) (p : Fin 5000) (q : Fin 8) :
    k0_pay1 (F := Ideal) x0 x1 x2 x3 x4 (ix2 p q)
      = (∑ j : Fin 64, Ideal.tanh ((∑ k : Fin 32, x0 (ix2 p k) * x1 (ix2 k j)) + x2 (ix2 (0 : Fin 1) j)) * x3 (ix2 j q))
        + x4 (ix2 (0 : Fin 1) q) := by
  unfold k0_pay1
  refine (addf_apply _ _ (ix2 p q)).trans ?_
  rw [outputDot_apply, broadcastTo_1b_ab_apply]
  simp only [shapeCast_self]
  refine congrArg (· + x4 (ix2 (0 : Fin 1) q)) (Finset.sum_congr rfl fun j _ => ?_)
  show Ideal.tanh
      (matmul dot_S5000x32_S32x64_S5000x64_1_0_0_1_n_n none
          (truncf FTy.bf16 x0 bitsLt_bf16_f32)
          (truncf FTy.bf16 x1 bitsLt_bf16_f32) (constant (F := Ideal) S5000x64 FTy.f32 0x00000000#32) (ix2 p j)
        + broadcastTo S5000x64 x2 broadcasts_S1x64_S5000x64 (ix2 p j))
      * x3 (ix2 j q) = _
  rw [hiddenDot_apply, broadcastTo_1b_ab_apply]
  rfl

/-- A BLOCK'S ROW IS A NODE'S: when row `p` of the block is row `n` of the feature array `a`, the two weight blocks are
    the weight arrays, and the one-row bias blocks hold the bias vectors, the body's result at `(p, q)` is the two-layer
    network's output at node `n` and output `q`. -/
theorem body_eq_output (a : S100000x32.Idx → EReal) (w1 : S32x64.Idx → EReal) (b1 : S64.Idx → EReal)
    (w2 : S64x8.Idx → EReal) (b2 : S8.Idx → EReal)
    (x0 : Vec Ideal S5000x32 .f32) (x1 : Vec Ideal S32x64 .f32) (x2 : Vec Ideal S1x64 .f32)
    (x3 : Vec Ideal S64x8 .f32) (x4 : Vec Ideal S1x8 .f32) (n : Fin 100000) (p : Fin 5000) (q : Fin 8)
    (h0 : ∀ k : Fin 32, x0 (ix2 p k) = a (ix2 n k))
    (h1 : ∀ (k : Fin 32) (j : Fin 64), x1 (ix2 k j) = w1 (ix2 k j))
    (h2 : ∀ j : Fin 64, x2 (ix2 (0 : Fin 1) j) = b1 (ix1 j))
    (h3 : ∀ (j : Fin 64) (r : Fin 8), x3 (ix2 j r) = w2 (ix2 j r))
    (h4 : ∀ r : Fin 8, x4 (ix2 (0 : Fin 1) r) = b2 (ix1 r)) :
    k0_pay1 (F := Ideal) x0 x1 x2 x3 x4 (ix2 p q)
      = Cert.Gcn.output (Cert.Gcn.hidden a w1 b1) w2 b2 (ix2 n q) := by
  rw [body_apply, Cert.Gcn.output_apply]
  unfold Cert.Gcn.outputAt
  rw [h4]
  refine congrArg (· + b2 (ix1 q)) (Finset.sum_congr rfl fun j _ => ?_)
  rw [Cert.Gcn.hidden_apply, h3]
  unfold Cert.Gcn.hiddenAt
  rw [h2]
  refine congrArg (fun s => Ideal.tanh (s + b1 (ix1 j)) * w2 (ix2 j q)) (Finset.sum_congr rfl fun k _ => ?_)
  rw [h0, h1]

end Cert.KernelIdeal.GcnValue

end
-- ==== Proof.KernelValue.lean ====
/-
  From blocks to the array: the value the kernel leaves in its result.

  The grid has 20 points. Point `t` reads rows `5000 t … 5000 t + 4999` of the feature array, the two weight matrices
  whole, and the two bias vectors as one-row arrays; it writes rows `5000 t … 5000 t + 4999` of the result. Each block
  written is those rows of the two-layer network's output on the feature array (the body's arithmetic read at an element),
  and the 20 blocks tile the 100000 rows: row `r` lies in the block of point `r / 5000`. So the result array is the
  network's output on the feature array, and the arguments are unchanged.
-/
import proofs.«165516_j472446402806_2_alg».proof.Proof.Gen.KernelIdeal.Value
import proofs.«165516_j472446402806_2_alg».proof.Proof.KernelBody
import Idealize.ShloMosaic.Lib.ValueIdx
import Idealize.ShloMosaic.Lib.ValueLayout
import Idealize.ShloMosaic.Lib.Pipeline.Value
import Idealize.ShloMosaic.Lib.Tactic

noncomputable section

open scoped BigOperators

namespace Cert.KernelIdeal.GcnValue

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-! ## The two biases as one-row arrays -/

/-- The first bias as the region finds it: the bias vector re-laid as one row. -/
theorem firstBias_eq (c : Dev nD) :
    (V m c main_v32 : S1x64.Idx → EReal)
      = shapeCast S1x64 (m ((c : Thread nD τ).loc main_arg3) : S64.Idx → EReal) shapeCasts_S64_S1x64 := by
  dsimp only [Gen.V]
  simp only [Gen.hostOps0, Gen.hostOps0_1, Gen.hostOps0_2, List.flatten_cons, List.flatten_nil, List.append_nil,
    List.cons_append, List.nil_append]
  after_results
  rfl

/-- The second bias as the region finds it: the bias vector re-laid as one row. -/
theorem secondBias_eq (c : Dev nD) :
    (V m c main_v33 : S1x8.Idx → EReal)
      = shapeCast S1x8 (m ((c : Thread nD τ).loc main_arg5) : S8.Idx → EReal) shapeCasts_S8_S1x8 := by
  dsimp only [Gen.V]
  simp only [Gen.hostOps0, Gen.hostOps0_1, Gen.hostOps0_2, List.flatten_cons, List.flatten_nil, List.append_nil,
    List.cons_append, List.nil_append]
  after_results
  rfl

/-- Its one row at `j` is the bias vector at `j`. -/
theorem firstBias_apply (c : Dev nD) (j : Fin 64) :
    (V m c main_v32 : S1x64.Idx → EReal) (ix2 (0 : Fin 1) j) = (m ((c : Thread nD τ).loc main_arg3) : S64.Idx → EReal) (ix1 j) := by
  rw [firstBias_eq]
  exact shapeCast_a_1a_apply _ _ (0 : Fin 1) j

/-- Its one row at `r` is the bias vector at `r`. -/
theorem secondBias_apply (c : Dev nD) (r : Fin 8) :
    (V m c main_v33 : S1x8.Idx → EReal) (ix2 (0 : Fin 1) r) = (m ((c : Thread nD τ).loc main_arg5) : S8.Idx → EReal) (ix1 r) := by
  rw [secondBias_eq]
  exact shapeCast_a_1a_apply _ _ (0 : Fin 1) r

/-! ## Where each window's block sits at a grid point -/

/-- The index maps over the 20 points: the feature rows and the output rows move with the point, 5000 rows a point;
    the weights and the biases stay whole. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## A window's block read off an array

Stated for an arbitrary array `A`: a block's element at point `t` sits, on each axis, at the block index times the block
size plus its own coordinate. -/

/-- Row `p` of the block of feature rows at point `t` is the array's row `5000 t + p`. -/
theorem featureRows_read (A : S100000x32.Idx → EReal) (t : Fin cfg0.N) (p : Fin 5000) (k : Fin 32) (n : Fin 100000)
    (hn : n.val = 5000 * t.val + p.val) (e0 : win0_0.index t (0 : Fin 2) = t.val) (e1 : win0_0.index t (1 : Fin 2) = 0) :
    (((cfg0.win 0).blk t).view.read (Elt Ideal) A : Vec Ideal S5000x32 .f32) (ix2 p k) = A (ix2 n k) := by
  show A (((cfg0.win 0).blk t).view.emb (ix2 p k)) = _
  refine congrArg A (funext fun a => Fin.ext ?_)
  match a with
  | ⟨0, _⟩ => show win0_0.index t (0 : Fin 2) * 5000 + 1 * p.val = n.val; rw [e0, hn]; omega
  | ⟨1, _⟩ => show win0_0.index t (1 : Fin 2) * 32 + 1 * k.val = k.val; rw [e1]; omega

/-- The first weight matrix's block is the whole array. -/
theorem firstWeight_read (A : S32x64.Idx → EReal) (t : Fin cfg0.N) (k : Fin 32) (j : Fin 64)
    (e0 : win0_1.index t (0 : Fin 2) = 0) (e1 : win0_1.index t (1 : Fin 2) = 0) :
    (((cfg0.win 1).blk t).view.read (Elt Ideal) A : Vec Ideal S32x64 .f32) (ix2 k j) = A (ix2 k j) := by
  show A (((cfg0.win 1).blk t).view.emb (ix2 k j)) = _
  refine congrArg A (funext fun a => Fin.ext ?_)
  match a with
  | ⟨0, _⟩ => show win0_1.index t (0 : Fin 2) * 32 + 1 * k.val = k.val; rw [e0]; omega
  | ⟨1, _⟩ => show win0_1.index t (1 : Fin 2) * 64 + 1 * j.val = j.val; rw [e1]; omega

/-- The first bias row's block is the whole one-row array. -/
theorem firstBiasRow_read (A : S1x64.Idx → EReal) (t : Fin cfg0.N) (j : Fin 64)
    (e0 : win0_2.index t (0 : Fin 2) = 0) (e1 : win0_2.index t (1 : Fin 2) = 0) :
    (((cfg0.win 2).blk t).view.read (Elt Ideal) A : Vec Ideal S1x64 .f32) (ix2 (0 : Fin 1) j) = A (ix2 (0 : Fin 1) j) := by
  show A (((cfg0.win 2).blk t).view.emb (ix2 (0 : Fin 1) j)) = _
  refine congrArg A (funext fun a => Fin.ext ?_)
  match a with
  | ⟨0, _⟩ => show win0_2.index t (0 : Fin 2) * 1 + 1 * 0 = 0; omega
  | ⟨1, _⟩ => show win0_2.index t (1 : Fin 2) * 64 + 1 * j.val = j.val; rw [e1]; omega

/-- The second weight matrix's block is the whole array. -/
theorem secondWeight_read (A : S64x8.Idx → EReal) (t : Fin cfg0.N) (j : Fin 64) (r : Fin 8)
    (e0 : win0_3.index t (0 : Fin 2) = 0) (e1 : win0_3.index t (1 : Fin 2) = 0) :
    (((cfg0.win 3).blk t).view.read (Elt Ideal) A : Vec Ideal S64x8 .f32) (ix2 j r) = A (ix2 j r) := by
  show A (((cfg0.win 3).blk t).view.emb (ix2 j r)) = _
  refine congrArg A (funext fun a => Fin.ext ?_)
  match a with
  | ⟨0, _⟩ => show win0_3.index t (0 : Fin 2) * 64 + 1 * j.val = j.val; rw [e0]; omega
  | ⟨1, _⟩ => show win0_3.index t (1 : Fin 2) * 8 + 1 * r.val = r.val; rw [e1]; omega

/-- The second bias row's block is the whole one-row array. -/
theorem secondBiasRow_read (A : S1x8.Idx → EReal) (t : Fin cfg0.N) (r : Fin 8)
    (e0 : win0_4.index t (0 : Fin 2) = 0) (e1 : win0_4.index t (1 : Fin 2) = 0) :
    (((cfg0.win 4).blk t).view.read (Elt Ideal) A : Vec Ideal S1x8 .f32) (ix2 (0 : Fin 1) r) = A (ix2 (0 : Fin 1) r) := by
  show A (((cfg0.win 4).blk t).view.emb (ix2 (0 : Fin 1) r)) = _
  refine congrArg A (funext fun a => Fin.ext ?_)
  match a with
  | ⟨0, _⟩ => show win0_4.index t (0 : Fin 2) * 1 + 1 * 0 = 0; omega
  | ⟨1, _⟩ => show win0_4.index t (1 : Fin 2) * 8 + 1 * r.val = r.val; rw [e1]; omega

/-! ## Each input block at a point, off the arrays the region finds -/

/-- Row `p` of the feature block at point `t` is row `5000 t + p` of the feature array the region finds. -/
theorem featureBlock_apply (c : Dev nD) (t : Fin cfg0.N) (p : Fin 5000) (k : Fin 32) (n : Fin 100000)
    (hn : n.val = 5000 * t.val + p.val) :
    (iblk m c 0 t : Vec Ideal S5000x32 .f32) (ix2 p k) = (V m c main_v31 : S100000x32.Idx → EReal) (ix2 n k) := by
  obtain ⟨e0, e1, -⟩ := blockIndex t
  unfold iblk
  exact featureRows_read (V m c (Pipeline.arrRef spec0 0)) t p k n hn e0 e1

/-- The first weight block at every point is the first weight matrix, as launched. -/
theorem firstWeightBlock_apply (c : Dev nD) (t : Fin cfg0.N) (k : Fin 32) (j : Fin 64) :
    (iblk m c 1 t : Vec Ideal S32x64 .f32) (ix2 k j) = (m ((c : Thread nD τ).loc main_arg2) : S32x64.Idx → EReal) (ix2 k j) := by
  obtain ⟨-, -, e0, e1, -⟩ := blockIndex t
  unfold iblk
  exact (firstWeight_read (V m c (Pipeline.arrRef spec0 1)) t k j e0 e1).trans (congrFun (V_main_arg2 m c) (ix2 k j))

/-- The first bias block at every point holds the first bias vector in its one row. -/
theorem firstBiasBlock_apply (c : Dev nD) (t : Fin cfg0.N) (j : Fin 64) :
    (iblk m c 2 t : Vec Ideal S1x64 .f32) (ix2 (0 : Fin 1) j) = (m ((c : Thread nD τ).loc main_arg3) : S64.Idx → EReal) (ix1 j) := by
  obtain ⟨-, -, -, -, e0, e1, -⟩ := blockIndex t
  unfold iblk
  exact (firstBiasRow_read (V m c (Pipeline.arrRef spec0 2)) t j e0 e1).trans (firstBias_apply m c j)

/-- The second weight block at every point is the second weight matrix, as launched. -/
theorem secondWeightBlock_apply (c : Dev nD) (t : Fin cfg0.N) (j : Fin 64) (r : Fin 8) :
    (iblk m c 3 t : Vec Ideal S64x8 .f32) (ix2 j r) = (m ((c : Thread nD τ).loc main_arg4) : S64x8.Idx → EReal) (ix2 j r) := by
  obtain ⟨-, -, -, -, -, -, e0, e1, -⟩ := blockIndex t
  unfold iblk
  exact (secondWeight_read (V m c (Pipeline.arrRef spec0 3)) t j r e0 e1).trans (congrFun (V_main_arg4 m c) (ix2 j r))

/-- The second bias block at every point holds the second bias vector in its one row. -/
theorem secondBiasBlock_apply (c : Dev nD) (t : Fin cfg0.N) (r : Fin 8) :
    (iblk m c 4 t : Vec Ideal S1x8 .f32) (ix2 (0 : Fin 1) r) = (m ((c : Thread nD τ).loc main_arg5) : S8.Idx → EReal) (ix1 r) := by
  obtain ⟨-, -, -, -, -, -, -, -, e0, e1, -⟩ := blockIndex t
  unfold iblk
  exact (secondBiasRow_read (V m c (Pipeline.arrRef spec0 4)) t r e0 e1).trans (secondBias_apply m c r)

/-! ## What a point writes back -/

/-- The body's one store covers its whole buffer, and its loads read whole blocks: what it leaves is its arithmetic on
    the blocks. -/
theorem stored_eq {F : FTy → Type} [FloatOps F] (x0 : Vec F S5000x32 .f32) (x1 : Vec F S32x64 .f32) (x2 : Vec F S1x64 .f32)
    (x3 : Vec F S64x8 .f32) (x4 : Vec F S1x8 .f32) : out0_5 x0 x1 x2 x3 x4 = k0_pay1 x0 x1 x2 x3 x4 := by
  unfold out0_5
  rw [View.canon_unit_zero zeroOffsets]
  simp only [View.ld_unit_zero (S := S5000x32) zeroOffsets, View.ld_unit_zero (S := S32x64) zeroOffsets,
    View.ld_unit_zero (S := S1x64) zeroOffsets, View.ld_unit_zero (S := S64x8) zeroOffsets,
    View.ld_unit_zero (S := S1x8) zeroOffsets]

/-- The body's arithmetic on blocks that are rows `5000 t …` of a feature array `A`, the weight matrices and the bias
    vectors in one row each, is rows `5000 t … 5000 t + 4999` of the network's output on `A`. -/
theorem outputBlock_eq (A : S100000x32.Idx → EReal) (W1 : S32x64.Idx → EReal) (B1 : S64.Idx → EReal)
    (W2 : S64x8.Idx → EReal) (B2 : S8.Idx → EReal)
    (x0 : Vec Ideal S5000x32 .f32) (x1 : Vec Ideal S32x64 .f32) (x2 : Vec Ideal S1x64 .f32)
    (x3 : Vec Ideal S64x8 .f32) (x4 : Vec Ideal S1x8 .f32) (t : Fin cfg0.N)
    (h0 : ∀ (p : Fin 5000) (k : Fin 32) (n : Fin 100000), n.val = 5000 * t.val + p.val → x0 (ix2 p k) = A (ix2 n k))
    (h1 : ∀ (k : Fin 32) (j : Fin 64), x1 (ix2 k j) = W1 (ix2 k j))
    (h2 : ∀ j : Fin 64, x2 (ix2 (0 : Fin 1) j) = B1 (ix1 j))
    (h3 : ∀ (j : Fin 64) (r : Fin 8), x3 (ix2 j r) = W2 (ix2 j r))
    (h4 : ∀ r : Fin 8, x4 (ix2 (0 : Fin 1) r) = B2 (ix1 r)) :
    (cfg0.win 5).cut (grid0.coords t) (k0_pay1 (F := Ideal) x0 x1 x2 x3 x4)
      = ((cfg0.win 5).blk t).view.read (Elt Ideal) (Cert.Gcn.output (Cert.Gcn.hidden A W1 B1) W2 B2) := by
  refine funext fun (y : S5000x8.Idx) => ?_
  obtain ⟨p, q, rfl⟩ : ∃ (p : Fin 5000) (q : Fin 8), y = ix2 p q := ⟨y 0, y 1, eq_ix2 y⟩
  have ht : t.val < 20 := Nat.lt_of_lt_of_eq t.isLt N_0
  have hn : 5000 * t.val + p.val < 100000 := by omega
  obtain ⟨-, -, -, -, -, -, -, -, -, -, e0, e1⟩ := blockIndex t
  have he : ((cfg0.win 5).blk t).view.emb (ix2 p q) = ix2 (⟨5000 * t.val + p.val, hn⟩ : Fin 100000) q :=
    funext fun a => Fin.ext (by
      match a with
      | ⟨0, _⟩ => show win0_5.index t (0 : Fin 2) * 5000 + 1 * p.val = 5000 * t.val + p.val; rw [e0]; omega
      | ⟨1, _⟩ => show win0_5.index t (1 : Fin 2) * 8 + 1 * q.val = q.val; rw [e1]; omega)
  show k0_pay1 (F := Ideal) x0 x1 x2 x3 x4 (ix2 p q)
    = Cert.Gcn.output (Cert.Gcn.hidden A W1 B1) W2 B2 (((cfg0.win 5).blk t).view.emb (ix2 p q))
  rw [he]
  exact body_eq_output A W1 B1 W2 B2 x0 x1 x2 x3 x4 ⟨5000 * t.val + p.val, hn⟩ p q
    (fun k => h0 p k _ rfl) h1 h2 h3 h4

/-- WHAT POINT `t` WRITES BACK is rows `5000 t … 5000 t + 4999` of the network's output on the feature array. -/
theorem flushed_eq (c : Dev nD) (t : Fin cfg0.N) :
    (dats m 0 c).flushed 5 t = ((cfg0.win 5).blk t).view.read (Elt Ideal)
      (Cert.Gcn.output (Cert.Gcn.hidden (V m c main_v31 : S100000x32.Idx → EReal) (m ((c : Thread nD τ).loc main_arg2)) (m ((c : Thread nD τ).loc main_arg3)))
      (m ((c : Thread nD τ).loc main_arg4)) (m ((c : Thread nD τ).loc main_arg5))) := by
  rw [Value.flushed5, stored_eq]
  exact outputBlock_eq (V m c main_v31 : S100000x32.Idx → EReal) (m ((c : Thread nD τ).loc main_arg2))
    (m ((c : Thread nD τ).loc main_arg3)) (m ((c : Thread nD τ).loc main_arg4)) (m ((c : Thread nD τ).loc main_arg5))
    (iblk m c 0 t) (iblk m c 1 t) (iblk m c 2 t) (iblk m c 3 t) (iblk m c 4 t) t
    (fun p k n hn => featureBlock_apply m c t p k n hn) (fun k j => firstWeightBlock_apply m c t k j)
    (fun j => firstBiasBlock_apply m c t j) (fun j r => secondWeightBlock_apply m c t j r)
    (fun r => secondBiasBlock_apply m c t r)

/-! ## The blocks tile the output array -/

/-- An index of the output array is in point `t`'s block iff each coordinate is in the block's range on its axis. -/
theorem mem_outputBlock (t : Fin cfg0.N) (i : S100000x8.Idx) :
    i ∈ ((cfg0.win 5).blk t).view.set ↔ ∀ a : Fin 2, win0_5.index t a * S5000x8.size a ≤ (i a).val
      ∧ (i a).val < win0_5.index t a * S5000x8.size a + S5000x8.size a := by
  show i ∈ ((View.whole main_v34).slice (win0_5.rect t)).set ↔ _
  rw [View.set_slice_whole, Rect.mem_set_unit]
  exact Iff.rfl

/-- Every row of the output array is in the block of the point `row / 5000`. -/
theorem covered (i : S100000x8.Idx) :
    ∃ t : Fin cfg0.N, (cfg0.win 5).flush t = true ∧ i ∈ ((cfg0.win 5).blk t).view.set := by
  have hN : cfg0.N = 20 := N_0
  have hi0 : (i 0).val < 100000 := idx2_lt0 i
  have hi1 : (i 1).val < 8 := idx2_lt1 i
  have hlt : (i 0).val / 5000 < cfg0.N := by rw [hN]; omega
  obtain ⟨-, -, -, -, -, -, -, -, -, -, e0, e1⟩ := blockIndex ⟨(i 0).val / 5000, hlt⟩
  refine ⟨⟨(i 0).val / 5000, hlt⟩, flush0_5 _, ?_⟩
  rw [mem_outputBlock]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ (1 : Fin 2) * 8 ≤ (i 1).val
      ∧ (i 1).val < win0_5.index ⟨(i 0).val / 5000, hlt⟩ (1 : Fin 2) * 8 + 8
    rw [e1]
    omega

/-! ## The array after the run, and the run -/

/-- THE OUTPUT ARRAY after the run is the network's output on the feature array the region finds. -/
theorem final (c : Dev nD) :
    (dats m 0 c).arrAt 5 cfg0.N
      = Cert.Gcn.output (Cert.Gcn.hidden (V m c main_v31 : S100000x32.Idx → EReal) (m ((c : Thread nD τ).loc main_arg2)) (m ((c : Thread nD τ).loc main_arg3)))
      (m ((c : Thread nD τ).loc main_arg4)) (m ((c : Thread nD τ).loc main_arg5)) :=
  (dats m 0 c).arrAt_eq_of_cover 5 _ (fun t _ => flushed_eq m c t) covered

/-- THE RUN, READ: the result array holds the two-layer network applied to the feature array the region finds, and the
    arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v34)
          = Cert.Gcn.output (Cert.Gcn.hidden (V m c main_v31 : S100000x32.Idx → EReal) (m ((c : Thread nD τ).loc main_arg2)) (m ((c : Thread nD τ).loc main_arg3)))
      (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.GcnValue

end
-- ==== Proof.LibRowScatter.lean ====
/-
  Gathering rows of an array, and scatter-adding rows into an array, at a column of row numbers, read at an entry.

  `x[idx]` for an array `x` of `N` rows (of `C` numbers each, or of one number) and a column `idx` of `R` row numbers is
  a gather whose row `e` is row `clampRow idx e` of `x`: the row number read as a signed integer and clamped into
  `[0, N - 1]`.  `x.at[idx].add(u)` adds row `e` of `u` to row `idx e` of `x` when that signed number is a row of `x`,
  and drops it when it is not: over the extended reals entry `(n, c)` of the result is entry `(n, c)` of `x` plus the
  sum of `u e c` over the rows `e` whose number is `n`.
-/
import Idealize.ShloMosaic.PureOps.Ideal
import Idealize.ShloMosaic.Lib.ValueIdx

noncomputable section

open scoped BigOperators

namespace Idealize.ShloMosaic.RowScatter

open Idealize.ShloMosaic Idealize.ShloMosaic.ValueIdx

variable {α : Type}

/-! ## Closed facts about the axis lists of rank 1 and rank 2 -/

theorem kept2_0 : (List.finRange 2).filter (fun a : Fin 2 => a ∉ ([0] ++ [] : List (Fin 2))) = [1] := by decide
theorem kept2_0' : (List.finRange 2).filter (fun a : Fin 2 => a ∉ ([0] : List (Fin 2))) = [1] := by decide
theorem kept1_0 : (List.finRange 1).filter (fun a : Fin 1 => a ∉ ([0] ++ [] : List (Fin 1))) = [] := by decide
theorem kept1_0' : (List.finRange 1).filter (fun a : Fin 1 => a ∉ ([0] : List (Fin 1))) = [] := by decide
theorem idxOf_1 : List.idxOf (1 : Fin 2) [1] = 0 := by decide
theorem one_not_mem : (1 : Fin 2) ∉ ([0] : List (Fin 2)) := by decide
theorem zero_not_mem_one : (0 : Fin 2) ∉ ([1] : List (Fin 2)) := by decide

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The column of row numbers -/

/-- Entry `e` of a column of `R` row numbers, read as a signed integer. -/
def rowNo {R w : Nat} (idx : IVec ⟨2, ![R, 1]⟩ w) (e : Fin R) : Int := (idx (ix2 e (0 : Fin 1))).toInt

/-- The row a gather reads for entry `e`: its signed number clamped into `[0, N - 1]`. -/
def clampRow {R w : Nat} (N : Nat) (hN : 0 < N) (idx : IVec ⟨2, ![R, 1]⟩ w) (e : Fin R) : Fin N :=
  ⟨min (rowNo idx e).toNat (N - 1), by omega⟩

/-- A signed number that is a row is its own clamp. -/
theorem clampRow_of_rowNo {R w : Nat} (N : Nat) (hN : 0 < N) (idx : IVec ⟨2, ![R, 1]⟩ w) (e : Fin R) (n : Fin N)
    (h : rowNo idx e = (n.val : Int)) : clampRow N hN idx e = n := by
  apply Fin.ext
  show min (rowNo idx e).toNat (N - 1) = n.val
  have := n.isLt
  rw [h]; omega

/-! ## Rows of a rank-2 array gathered -/

/-- The dimension numbers of `x[idx]` for `x : [N, C]`, `idx : [R, 1]`: result `[R, C]`. -/
abbrev gatherRows (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section GatherRows
variable {N R C w : Nat} (wf : GatherDims.WF ⟨2, ![N, C]⟩ ⟨2, ![R, 1]⟩ ⟨2, ![R, C]⟩ [1] [0] [] [0] [] 1 ![1, C])
  (idx : IVec ⟨2, ![R, 1]⟩ w) (e : Fin R) (k : Fin C)

theorem gatherRows_sKept : (gatherRows N R C wf).sKept = [1] := kept2_0

theorem gatherRows_axis0 (hN : 0 < N) :
    (gatherRows N R C wf).start (ix2 e k) idx (0 : Fin 2) + (gatherRows N R C wf).batchCoord (ix2 e k) (0 : Fin 2)
      + (gatherRows N R C wf).offCoord (ix2 e k) (0 : Fin 2) = (clampRow N hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gatherRows N R C wf).startIndexMap from List.mem_singleton.mpr rfl)]
  have hsi : (gatherRows N R C wf).siIdx (ix2 e k) ⟨List.idxOf (0 : Fin 2) (gatherRows N R C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gatherRows_axis1 :
    (gatherRows N R C wf).start (ix2 e k) idx (1 : Fin 2) + (gatherRows N R C wf).batchCoord (ix2 e k) (1 : Fin 2)
      + (gatherRows N R C wf).offCoord (ix2 e k) (1 : Fin 2) = k.val := by
  rw [GatherDims.batchCoord_eq_zero _ _ _ List.not_mem_nil]
  have hs : (gatherRows N R C wf).start (ix2 e k) idx (1 : Fin 2) = 0 := by
    unfold GatherDims.start
    rw [dif_neg one_not_mem]
  have ho : (gatherRows N R C wf).offCoord (ix2 e k) (1 : Fin 2) = k.val := by
    unfold GatherDims.offCoord
    rw [dif_pos (by rw [gatherRows_sKept]; exact List.mem_singleton.mpr rfl)]
    have h : List.idxOf (1 : Fin 2) (gatherRows N R C wf).sKept = 0 := by rw [gatherRows_sKept]; exact idxOf_1
    simp only [h]
    rfl
  rw [hs, ho]; omega

/-- Row `e` of the gather is row `clampRow idx e` of the operand. -/
theorem gatherRows_apply (hN : 0 < N) (x : (⟨2, ![N, C]⟩ : Shape).Idx → α) :
    Host.gather (gatherRows N R C wf) x idx (ix2 e k) = x (ix2 (clampRow N hN idx e) k) := by
  unfold Host.gather
  congr 1
  funext a
  refine Fin.ext ?_
  revert a
  refine Fin.forall_fin_two.mpr ⟨?_, ?_⟩
  · exact gatherRows_axis0 wf idx e k hN
  · exact gatherRows_axis1 wf idx e k

end GatherRows

/-! ## Entries of a rank-1 array gathered -/

/-- The dimension numbers of `x[idx]` for `x : [N]`, `idx : [R, 1]`: result `[R]`. -/
abbrev gatherCol (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry `e` of the gather is entry `clampRow idx e` of the operand. -/
theorem gatherCol_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (gatherCol N R wf) x idx (ix1 e) = x (ix1 (clampRow N hN idx e)) := by
  unfold Host.gather
  congr 1
  funext a
  obtain rfl : a = 0 := Subsingleton.elim _ _
  refine Fin.ext ?_
  show (gatherCol N R wf).start (ix1 e) idx 0 + (gatherCol N R wf).batchCoord (ix1 e) 0
    + (gatherCol N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherCol N R wf).startIndexMap from List.mem_singleton.mpr rfl)]
  have hsi : (gatherCol N R wf).siIdx (ix1 e) ⟨List.idxOf (0 : Fin 1) (gatherCol N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows scatter-added into a rank-2 array -/

/-- The dimension numbers of `x.at[idx].add(u)` for `x : [N, C]`, `idx : [R, 1]`, `u : [R, C]`. -/
abbrev scatterRows (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section ScatterRows
variable {N R C w : Nat} (wf : ScatterDims.WF ⟨2, ![N, C]⟩ ⟨2, ![R, 1]⟩ ⟨2, ![R, C]⟩ [1] [0] [0] 1)
  (idx : IVec ⟨2, ![R, 1]⟩ w) (e : Fin R) (k : Fin C)

theorem scatterRows_sKept : (scatterRows N R C wf).sKept = [1] := kept2_0'

theorem scatterRows_axis0 :
    (scatterRows N R C wf).start (ix2 e k) idx (0 : Fin 2) + ((scatterRows N R C wf).window (ix2 e k) (0 : Fin 2) : Int)
      = rowNo idx e := by
  have hw : (scatterRows N R C wf).window (ix2 e k) (0 : Fin 2) = 0 := by
    unfold ScatterDims.window
    rw [dif_neg (by rw [scatterRows_sKept]; exact zero_not_mem_one)]
  have hs : (scatterRows N R C wf).start (ix2 e k) idx (0 : Fin 2) = rowNo idx e := by
    unfold ScatterDims.start
    rw [dif_pos (show (0 : Fin 2) ∈ (scatterRows N R C wf).scatterDimsToOperandDims from List.mem_singleton.mpr rfl)]
    have hsi : (scatterRows N R C wf).siIdx (ix2 e k)
        ⟨List.idxOf (0 : Fin 2) (scatterRows N R C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

theorem scatterRows_axis1 :
    (scatterRows N R C wf).start (ix2 e k) idx (1 : Fin 2) + ((scatterRows N R C wf).window (ix2 e k) (1 : Fin 2) : Int)
      = (k.val : Int) := by
  have hs : (scatterRows N R C wf).start (ix2 e k) idx (1 : Fin 2) = 0 := by
    unfold ScatterDims.start
    rw [dif_neg one_not_mem]
  have hw : (scatterRows N R C wf).window (ix2 e k) (1 : Fin 2) = k.val := by
    unfold ScatterDims.window
    rw [dif_pos (by rw [scatterRows_sKept]; exact List.mem_singleton.mpr rfl)]
    have h : List.idxOf (1 : Fin 2) (scatterRows N R C wf).sKept = 0 := by rw [scatterRows_sKept]; exact idxOf_1
    simp only [h]
    rfl
  rw [hs, hw]; simp

/-- Update `(e, k)` lands on entry `(n, c)` exactly when row `e`'s signed number is `n` and `k = c`. -/
theorem scatterRows_resultIdx (n : Fin N) (c : Fin C) :
    (scatterRows N R C wf).resultIdx? (ix2 e k) idx = some (ix2 n c) ↔ rowNo idx e = (n.val : Int) ∧ k = c := by
  have h0 := scatterRows_axis0 wf idx e k
  have h1 := scatterRows_axis1 wf idx e k
  unfold ScatterDims.resultIdx?
  split
  · rename_i h
    rw [Option.some.injEq]
    constructor
    · intro hi
      have e0 := congrArg Fin.val (congrFun hi (0 : Fin 2))
      have e1 := congrArg Fin.val (congrFun hi (1 : Fin 2))
      have p0 := (h (0 : Fin 2)).1
      refine ⟨?_, Fin.ext ?_⟩
      · have e0' : ((scatterRows N R C wf).start (ix2 e k) idx (0 : Fin 2)
            + ((scatterRows N R C wf).window (ix2 e k) (0 : Fin 2) : Int)).toNat = n.val := e0
        rw [h0] at e0' p0
        omega
      · have e1' : ((scatterRows N R C wf).start (ix2 e k) idx (1 : Fin 2)
            + ((scatterRows N R C wf).window (ix2 e k) (1 : Fin 2) : Int)).toNat = c.val := e1
        rw [h1] at e1'
        omega
    · rintro ⟨hr, rfl⟩
      funext a
      refine Fin.ext ?_
      revert a
      refine Fin.forall_fin_two.mpr ⟨?_, ?_⟩
      · show ((scatterRows N R C wf).start (ix2 e k) idx (0 : Fin 2)
            + ((scatterRows N R C wf).window (ix2 e k) (0 : Fin 2) : Int)).toNat = n.val
        rw [h0, hr]; simp
      · show ((scatterRows N R C wf).start (ix2 e k) idx (1 : Fin 2)
            + ((scatterRows N R C wf).window (ix2 e k) (1 : Fin 2) : Int)).toNat = k.val
        rw [h1]; simp
  · rename_i h
    constructor
    · intro hi; exact absurd hi (by simp)
    · rintro ⟨hr, rfl⟩
      exfalso
      apply h
      refine Fin.forall_fin_two.mpr ⟨?_, ?_⟩
      · show 0 ≤ (scatterRows N R C wf).start (ix2 e k) idx (0 : Fin 2)
            + ((scatterRows N R C wf).window (ix2 e k) (0 : Fin 2) : Int)
          ∧ (scatterRows N R C wf).start (ix2 e k) idx (0 : Fin 2)
            + ((scatterRows N R C wf).window (ix2 e k) (0 : Fin 2) : Int) < (N : Int)
        rw [h0, hr]
        have := n.isLt
        constructor <;> omega
      · show 0 ≤ (scatterRows N R C wf).start (ix2 e k) idx (1 : Fin 2)
            + ((scatterRows N R C wf).window (ix2 e k) (1 : Fin 2) : Int)
          ∧ (scatterRows N R C wf).start (ix2 e k) idx (1 : Fin 2)
            + ((scatterRows N R C wf).window (ix2 e k) (1 : Fin 2) : Int) < (C : Int)
        rw [h1]
        have := k.isLt
        constructor <;> omega

end ScatterRows

/-- Over the extended reals, entry `(n, c)` after the scatter-add is the entry before plus the sum of `u e c` over
    the rows `e` whose signed number is `n`. -/
theorem scatterAddRows_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (u : (⟨2, ![R, C]⟩ : Shape).Idx → EReal)
    (n : Fin N) (c : Fin C) :
    Ideal.hostScatterAdd (scatterRows N R C wf) x idx u (ix2 n c)
      = x (ix2 n c) + ∑ e ∈ Finset.univ.filter (fun e : Fin R => rowNo idx e = (n.val : Int)), u (ix2 e c) := by
  unfold Ideal.hostScatterAdd
  congr 1
  rw [Finset.sum_filter, sum_idx2, Finset.sum_filter]
  refine Finset.sum_congr rfl fun e _ => ?_
  simp only [scatterRows_resultIdx]
  by_cases h : rowNo idx e = (n.val : Int)
  · simp [h]
  · simp [h]

/-- The same for the host operation at the ideal values, whose meaning that sum is. -/
theorem hostScatterAddRows_apply {φ : FTy} {N R C w : Nat}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (u : FVec Ideal ⟨2, ![R, C]⟩ φ) (n : Fin N) (c : Fin C) :
    Host.scatterAdd (scatterRows N R C wf) x idx u (ix2 n c)
      = x (ix2 n c) + ∑ e ∈ Finset.univ.filter (fun e : Fin R => rowNo idx e = (n.val : Int)), u (ix2 e c) :=
  scatterAddRows_apply wf x idx u n c

/-! ## Entries scatter-added into a rank-1 array -/

/-- The dimension numbers of `x.at[idx].add(u)` for `x : [N]`, `idx : [R, 1]`, `u : [R]`. -/
abbrev scatterCol (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section ScatterCol
variable {N R w : Nat} (wf : ScatterDims.WF ⟨1, ![N]⟩ ⟨2, ![R, 1]⟩ ⟨1, ![R]⟩ [] [0] [0] 1)
  (idx : IVec ⟨2, ![R, 1]⟩ w) (e : Fin R)

theorem scatterCol_axis0 :
    (scatterCol N R wf).start (ix1 e) idx (0 : Fin 1) + ((scatterCol N R wf).window (ix1 e) (0 : Fin 1) : Int)
      = rowNo idx e := by
  have hw : (scatterCol N R wf).window (ix1 e) (0 : Fin 1) = 0 := by
    unfold ScatterDims.window
    rw [dif_neg (by rw [show (scatterCol N R wf).sKept = [] from kept1_0']; exact List.not_mem_nil)]
  have hs : (scatterCol N R wf).start (ix1 e) idx (0 : Fin 1) = rowNo idx e := by
    unfold ScatterDims.start
    rw [dif_pos (show (0 : Fin 1) ∈ (scatterCol N R wf).scatterDimsToOperandDims from List.mem_singleton.mpr rfl)]
    have hsi : (scatterCol N R wf).siIdx (ix1 e)
        ⟨List.idxOf (0 : Fin 1) (scatterCol N R wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

/-- Update `e` lands on entry `n` exactly when its signed number is `n`. -/
theorem scatterCol_resultIdx (n : Fin N) :
    (scatterCol N R wf).resultIdx? (ix1 e) idx = some (ix1 n) ↔ rowNo idx e = (n.val : Int) := by
  have h0 := scatterCol_axis0 wf idx e
  unfold ScatterDims.resultIdx?
  split
  · rename_i h
    rw [Option.some.injEq]
    constructor
    · intro hi
      have e0 : ((scatterCol N R wf).start (ix1 e) idx (0 : Fin 1)
          + ((scatterCol N R wf).window (ix1 e) (0 : Fin 1) : Int)).toNat = n.val :=
        congrArg Fin.val (congrFun hi (0 : Fin 1))
      have p0 := (h (0 : Fin 1)).1
      rw [h0] at e0 p0
      omega
    · intro hr
      funext a
      obtain rfl : a = 0 := Subsingleton.elim _ _
      refine Fin.ext ?_
      show ((scatterCol N R wf).start (ix1 e) idx (0 : Fin 1)
          + ((scatterCol N R wf).window (ix1 e) (0 : Fin 1) : Int)).toNat = n.val
      rw [h0, hr]; simp
  · rename_i h
    constructor
    · intro hi; exact absurd hi (by simp)
    · intro hr
      exfalso
      apply h
      intro a
      obtain rfl : a = 0 := Subsingleton.elim _ _
      show 0 ≤ (scatterCol N R wf).start (ix1 e) idx (0 : Fin 1)
          + ((scatterCol N R wf).window (ix1 e) (0 : Fin 1) : Int)
        ∧ (scatterCol N R wf).start (ix1 e) idx (0 : Fin 1)
          + ((scatterCol N R wf).window (ix1 e) (0 : Fin 1) : Int) < (N : Int)
      rw [h0, hr]
      have := n.isLt
      constructor <;> omega

end ScatterCol

/-- Over the extended reals, entry `n` after the scatter-add is the entry before plus the sum of `u e` over the
    entries `e` whose signed number is `n`. -/
theorem scatterAddCol_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (u : (⟨1, ![R]⟩ : Shape).Idx → EReal) (n : Fin N) :
    Ideal.hostScatterAdd (scatterCol N R wf) x idx u (ix1 n)
      = x (ix1 n) + ∑ e ∈ Finset.univ.filter (fun e : Fin R => rowNo idx e = (n.val : Int)), u (ix1 e) := by
  unfold Ideal.hostScatterAdd
  congr 1
  rw [Finset.sum_filter, sum_idx1, Finset.sum_filter]
  refine Finset.sum_congr rfl fun e _ => ?_
  simp only [scatterCol_resultIdx]

end Idealize.ShloMosaic.RowScatter

end
-- ==== Proof.AggLaw.lean ====
/-
  Aggregating before or after the first linear layer.

  Fix a node `n`, the set `S` of edges that end in `n`, and for every edge `e` its source's normalising factor `δs e`
  and feature row `xs e`.  One program scales the feature rows, sums them over `S`, scales the sum by the node's own
  factor `δn` and only then multiplies by the weight matrix; the other multiplies every source row by the weight
  matrix first and sums the products, each scaled by `δs e · δn`.  For real entries both are
  `∑ e ∈ S, ∑ k, δn · δs e · xs e k · w k`: a finite sum may be taken in either order and a factor moves across it.
  Over the extended reals this needs every entry to be a real number (a factor does not move across a sum of
  infinities of both signs), which is how it is stated.
-/
import Mathlib.Data.EReal.Basic
import Mathlib.Algebra.BigOperators.Ring.Finset
import Mathlib.Algebra.BigOperators.Group.Finset.Sigma

noncomputable section

open scoped BigOperators

namespace Cert.Gcn

/-- There is at least one node. -/
theorem nodes_pos : 0 < 100000 := by decide

/-- The coercion of a finite real sum into the extended reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals. -/
theorem agg_law_real {E K : Type} [Fintype K] (S : Finset E) (δn : ℝ) (δs : E → ℝ) (xs : E → K → ℝ) (w : K → ℝ) :
    ∑ k, (δn * ∑ e ∈ S, δs e * xs e k) * w k = ∑ e ∈ S, (∑ k, xs e k * w k) * (δs e * δn) := by
  simp only [Finset.mul_sum, Finset.sum_mul]
  rw [Finset.sum_comm]
  exact Finset.sum_congr rfl fun e _ => Finset.sum_congr rfl fun k _ => by ring

/-- The law over the extended reals, for real entries; each side starts its sum over the edges from `0`. -/
theorem agg_law {E K : Type} [Fintype K] (S : Finset E) (δn : ℝ) (δs : E → ℝ) (xs : E → K → ℝ) (w : K → ℝ) :
    ∑ k, ((δn : EReal) * (0 + ∑ e ∈ S, (δs e : EReal) * (xs e k : EReal))) * (w k : EReal)
      = 0 + ∑ e ∈ S, (∑ k, (xs e k : EReal) * (w k : EReal)) * ((δs e : EReal) * (δn : EReal)) := by
  simp only [zero_add, ← EReal.coe_mul, ← coe_sum]
  rw [EReal.coe_eq_coe_iff]
  exact agg_law_real S δn δs xs w

end Cert.Gcn

end
-- ==== Proof.KernelHost.lean ====
/-
  What the kernel's program hands to its region: the normalised aggregate of the scaled feature rows.

  Before the region the program builds, from the edge list, the column of sources and the column of destinations (each
  followed by one self loop per node), the nodes' normalising factors `dinv`, the feature rows scaled by their node's
  factor, the rows gathered at the sources, their sum per destination, and that sum scaled by the destination's
  factor.  The operations are taken in four stretches, each read over the buffer contents the stretch before it left,
  so that no stretch's reading has to look inside another's.  At an entry the result is
  `dinv n · (0 + ∑ over the edges e that end in n of dinv (src e) · x (src e) k)`.
-/
import proofs.«165516_j472446402806_2_alg».proof.Proof.Gen.KernelIdeal.Frame
import proofs.«165516_j472446402806_2_alg».proof.Proof.RefRead
import proofs.«165516_j472446402806_2_alg».proof.Proof.LibRowScatter
import proofs.«165516_j472446402806_2_alg».proof.Proof.AggLaw
import Idealize.ShloMosaic.Lib.StableHlo.Run
import Idealize.ShloMosaic.Lib.Pipeline.Value

noncomputable section

open scoped BigOperators

namespace Cert.KernelIdeal.GcnHost

open Cert.KernelIdeal Cert.KernelIdeal.Gen Idealize.ShloMosaic Idealize.ShloMosaic.TcCoe Idealize.SL.Sem
open Idealize.ShloMosaic.StableHlo Idealize.ShloMosaic.ValueIdx Idealize.ShloMosaic.RowScatter Cert.Gcn

/-! ## The stretches as functions of what they read -/

/-- A column of row numbers, as the [R, 1] array the gather and the scatter take. -/
def asColumn (v : IVec S1700000 32) : IVec S1700000x1 32 :=
  broadcastInDim S1700000x1 ![0] bcast_S1700000_S1700000x1_0 v

/-- A source column with its negative entries wrapped by the number of nodes. -/
def wrapped (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- A factor per node, repeated along the 32 features. -/
def wide (δ : FVec Ideal S100000 .f32) : FVec Ideal S100000x32 .f32 :=
  broadcastInDim S100000x32 ![0, 1] bcast_S100000x1_S100000x32_0_1
    (broadcastInDim S100000x1 ![0] bcast_S100000_S100000x1_0 δ)

/-- The number of edges ending in each node: ones scatter-added at the destinations. -/
def degree (d6 : IVec S1700000 32) : FVec Ideal S100000 .f32 :=
  Host.scatterAdd scatter_S100000_S1700000x1_S1700000_n_0_0_1
    (broadcastInDim S100000 ![] bcast_S_S100000 (constant S_ .f32 0x00000000#32)) (asColumn d6)
    (broadcastInDim S1700000 ![] bcast_S_S1700000 (constant S_ .f32 0x3F800000#32))

/-- The normalised aggregate, from the factors, the two columns and the feature rows. -/
def aggregate (δ : FVec Ideal S100000 .f32) (s3 d6 : IVec S1700000 32) (x0 : FVec Ideal S100000x32 .f32) :
    FVec Ideal S100000x32 .f32 :=
  mulf (wide δ)
    (Host.scatterAdd scatter_S100000x32_S1700000x1_S1700000x32_1_0_0_1
      (broadcastInDim S100000x32 ![] bcast_S_S100000x32 (constant S_ .f32 0x00000000#32)) (asColumn d6)
      (Host.gather gather_S100000x32_S1700000x1_S1700000x32_1_0_n_n_0_1_132 (mulf (wide δ) x0) (asColumn (wrapped s3))))

/-! ## The stretches read back -/

theorem after_append (l₁ l₂ : List (HloOp τ sig (Elt Ideal))) (W : Valuation τ sig (Elt Ideal)) :
    after (l₁ ++ l₂) W = after l₂ (after l₁ W) := by
  induction l₁ generalizing W with
  | nil => rfl
  | cons op l ih => simp only [List.cons_append, after_cons, ih]

/-- The last stretch: 21 operations, over any contents before it. -/
theorem last_stretch (W : Valuation τ sig (Elt Ideal)) :
    after (hostOps0_2 (F := Ideal)) W (Proc.devRef .tc main_v31)
      = aggregate (W (Proc.devRef .tc main_v15)) (W (Proc.devRef .tc main_v3)) (W (Proc.devRef .tc main_v6))
          (W (Proc.devRef .tc main_arg0)) := by
  simp only [hostOps0_2]
  after_results_simp
  rfl

theorem last_keeps_arg2 (W : Valuation τ sig (Elt Ideal)) :
    after (hostOps0_2 (F := Ideal)) W (Proc.devRef .tc main_arg2) = W (Proc.devRef .tc main_arg2) := by
  simp only [hostOps0_2]
  after_results_simp

/-- The call of the selection: one operation. -/
theorem call_stretch (W : Valuation τ sig (Elt Ideal)) :
    after (hostOps0_1 (F := Ideal)) W (Proc.devRef .tc main_v15)
      = select (W (Proc.devRef .tc main_v12)) (W (Proc.devRef .tc main_v13)) (W (Proc.devRef .tc main_v14)) := by
  simp only [hostOps0_1]
  after_results
  rfl
theorem call_keeps_v3 (W : Valuation τ sig (Elt Ideal)) :
    after (hostOps0_1 (F := Ideal)) W (Proc.devRef .tc main_v3) = W (Proc.devRef .tc main_v3) := by
  simp only [hostOps0_1]
  after_results
theorem call_keeps_v6 (W : Valuation τ sig (Elt Ideal)) :
    after (hostOps0_1 (F := Ideal)) W (Proc.devRef .tc main_v6) = W (Proc.devRef .tc main_v6) := by
  simp only [hostOps0_1]
  after_results
theorem call_keeps_arg0 (W : Valuation τ sig (Elt Ideal)) :
    after (hostOps0_1 (F := Ideal)) W (Proc.devRef .tc main_arg0) = W (Proc.devRef .tc main_arg0) := by
  simp only [hostOps0_1]
  after_results

/-- The all-zero vector over the nodes. -/
def zeros : FVec Ideal S100000 .f32 := broadcastInDim S100000 ![] bcast_S_S100000 (constant S_ .f32 0x00000000#32)

/-- The factor of a node: `1 / sqrt` of its degree where that is positive, zero elsewhere. -/
def factors (d6 : IVec S1700000 32) : FVec Ideal S100000 .f32 :=
  select (cmpf .ogt (degree d6) zeros) (Host.rsqrt (degree d6)) zeros

/-- The middle stretch: twelve operations after the two columns, over any contents before them. -/
theorem middle_v12 (U : Valuation τ sig (Elt Ideal)) :
    after ((hostOps0 (F := Ideal)).drop 7) U (Proc.devRef .tc main_v12)
      = cmpf .ogt (degree (U (Proc.devRef .tc main_v6))) zeros := by
  simp only [hostOps0, List.drop_succ_cons, List.drop_zero]
  after_results_simp
  rfl
theorem middle_v13 (U : Valuation τ sig (Elt Ideal)) :
    after ((hostOps0 (F := Ideal)).drop 7) U (Proc.devRef .tc main_v13)
      = Host.rsqrt (degree (U (Proc.devRef .tc main_v6))) := by
  simp only [hostOps0, List.drop_succ_cons, List.drop_zero]
  after_results_simp
  rfl
theorem middle_v14 (U : Valuation τ sig (Elt Ideal)) :
    after ((hostOps0 (F := Ideal)).drop 7) U (Proc.devRef .tc main_v14) = zeros := by
  simp only [hostOps0, List.drop_succ_cons, List.drop_zero]
  after_results_simp
  rfl
theorem middle_keeps_v3 (U : Valuation τ sig (Elt Ideal)) :
    after ((hostOps0 (F := Ideal)).drop 7) U (Proc.devRef .tc main_v3) = U (Proc.devRef .tc main_v3) := by
  simp only [hostOps0, List.drop_succ_cons, List.drop_zero]
  after_results_simp
theorem middle_keeps_v6 (U : Valuation τ sig (Elt Ideal)) :
    after ((hostOps0 (F := Ideal)).drop 7) U (Proc.devRef .tc main_v6) = U (Proc.devRef .tc main_v6) := by
  simp only [hostOps0, List.drop_succ_cons, List.drop_zero]
  after_results_simp
theorem middle_keeps_arg0 (U : Valuation τ sig (Elt Ideal)) :
    after ((hostOps0 (F := Ideal)).drop 7) U (Proc.devRef .tc main_arg0) = U (Proc.devRef .tc main_arg0) := by
  simp only [hostOps0, List.drop_succ_cons, List.drop_zero]
  after_results_simp

variable (m : (ℓ : Loc nD τ sig) → Buf (Elt Ideal) ℓ) (c : Dev nD)

/-- The first stretch: the seven operations that build the two columns from the edge list. -/
theorem first_v3 :
    after ((hostOps0 (F := Ideal)).take 7) (fun b => m (c, b)) (Proc.devRef .tc main_v3)
      = Cert.ReferenceIdeal.ReadP.val_main_v3 (F := Ideal) (m ((c : Thread nD τ).loc main_arg1)) := by
  simp only [hostOps0, List.take_succ_cons, List.take_zero]
  after_results
  rfl
theorem first_v6 :
    after ((hostOps0 (F := Ideal)).take 7) (fun b => m (c, b)) (Proc.devRef .tc main_v6)
      = Cert.ReferenceIdeal.ReadP.val_main_v6 (F := Ideal) (m ((c : Thread nD τ).loc main_arg1)) := by
  simp only [hostOps0, List.take_succ_cons, List.take_zero]
  after_results
  rfl
theorem first_keeps_arg0 :
    after ((hostOps0 (F := Ideal)).take 7) (fun b => m (c, b)) (Proc.devRef .tc main_arg0)
      = m ((c : Thread nD τ).loc main_arg0) := by
  simp only [hostOps0, List.take_succ_cons, List.take_zero]
  after_results

/-- What window 0 of the region finds: the normalised aggregate, over the two columns read off the edge list. -/
theorem V_aggregate :
    (V m c main_v31 : S100000x32.Idx → EReal)
      = aggregate (factors (Cert.ReferenceIdeal.ReadP.val_main_v6 (F := Ideal) (m ((c : Thread nD τ).loc main_arg1))))
          (Cert.ReferenceIdeal.ReadP.val_main_v3 (F := Ideal) (m ((c : Thread nD τ).loc main_arg1)))
          (Cert.ReferenceIdeal.ReadP.val_main_v6 (F := Ideal) (m ((c : Thread nD τ).loc main_arg1)))
          (m ((c : Thread nD τ).loc main_arg0)) := by
  show after (List.flatten [hostOps0 (F := Ideal), hostOps0_1, hostOps0_2]) (fun b => m (c, b))
    (Proc.devRef .tc main_v31) = _
  have hsplit : List.flatten [hostOps0 (F := Ideal), hostOps0_1, hostOps0_2]
      = (hostOps0 (F := Ideal)).take 7 ++ ((hostOps0 (F := Ideal)).drop 7 ++ (hostOps0_1 ++ hostOps0_2)) := by
    rw [← List.append_assoc, List.take_append_drop]
    simp only [List.flatten_cons, List.flatten_nil, List.append_nil]
  rw [hsplit, after_append, after_append, after_append, last_stretch, call_stretch, call_keeps_v3, call_keeps_v6,
    call_keeps_arg0, middle_v12, middle_v13, middle_v14, middle_keeps_v3, middle_keeps_v6, middle_keeps_arg0,
    first_v3, first_v6, first_keeps_arg0]
  rfl

end Cert.KernelIdeal.GcnHost

end
-- ==== Proof.GcnLaw.lean ====
/-
  Aggregating before or after the first linear layer, over the arrays.

  With `S n` the edges whose destination is the node `n`, `src e` the row read for edge `e`'s source and `dst' e` the row
  read for its destination (equal to `n` on `S n`), and every entry of `δ`, `x` and `w1` a real number,
    `∑ k, (δ n · (0 + ∑ e ∈ S n, δ (src e) · x (src e) k)) · w1 k j
        = 0 + ∑ e ∈ S n, (∑ k, x (src e) k · w1 k j) · (δ (src e) · δ (dst' e))`.
-/
import proofs.«165516_j472446402806_2_alg».proof.Proof.LibRowScatter
import proofs.«165516_j472446402806_2_alg».proof.Proof.AggLaw

noncomputable section

open scoped BigOperators

namespace Cert.Gcn

open Idealize.ShloMosaic Idealize.ShloMosaic.ValueIdx Idealize.ShloMosaic.RowScatter

theorem hidden_law (δ : (⟨1, ![100000]⟩ : Shape).Idx → EReal) (x : (⟨2, ![100000, 32]⟩ : Shape).Idx → EReal)
    (w1 : (⟨2, ![32, 64]⟩ : Shape).Idx → EReal) (colS colD colDn : IVec ⟨2, ![1700000, 1]⟩ 32)
    (hδ : ∀ i, ∃ r : ℝ, δ i = (r : EReal)) (hx : ∀ i, ∃ r : ℝ, x i = (r : EReal))
    (hw : ∀ i, ∃ r : ℝ, w1 i = (r : EReal))
    (hlink : ∀ (e : Fin 1700000) (n : Fin 100000), rowNo colD e = (n.val : Int) → clampRow 100000 nodes_pos colDn e = n)
    (z : EReal) (hz : z = 0) (n : Fin 100000) (j : Fin 64) :
    ∑ k : Fin 32, (δ (ix1 n) * (z + ∑ e ∈ Finset.univ.filter (fun e : Fin 1700000 => rowNo colD e = (n.val : Int)),
        δ (ix1 (clampRow 100000 nodes_pos colS e)) * x (ix2 (clampRow 100000 nodes_pos colS e) k))) * w1 (ix2 k j)
      = z + ∑ e ∈ Finset.univ.filter (fun e : Fin 1700000 => rowNo colD e = (n.val : Int)),
          (∑ k : Fin 32, x (ix2 (clampRow 100000 nodes_pos colS e) k) * w1 (ix2 k j))
            * (δ (ix1 (clampRow 100000 nodes_pos colS e)) * δ (ix1 (clampRow 100000 nodes_pos colDn e))) := by
  subst hz
  have hR : ∑ e ∈ Finset.univ.filter (fun e : Fin 1700000 => rowNo colD e = (n.val : Int)),
        (∑ k : Fin 32, x (ix2 (clampRow 100000 nodes_pos colS e) k) * w1 (ix2 k j))
          * (δ (ix1 (clampRow 100000 nodes_pos colS e)) * δ (ix1 (clampRow 100000 nodes_pos colDn e)))
      = ∑ e ∈ Finset.univ.filter (fun e : Fin 1700000 => rowNo colD e = (n.val : Int)),
        (∑ k : Fin 32, x (ix2 (clampRow 100000 nodes_pos colS e) k) * w1 (ix2 k j))
          * (δ (ix1 (clampRow 100000 nodes_pos colS e)) * δ (ix1 n)) :=
    Finset.sum_congr rfl fun e he => by rw [hlink e n (Finset.mem_filter.mp he).2]
  rw [hR]
  choose δr hδr using hδ
  choose xr hxr using hx
  choose wr hwr using hw
  simp only [hδr, hxr, hwr]
  exact agg_law (E := Fin 1700000) (K := Fin 32) _ (δr (ix1 n)) (fun e => δr (ix1 (clampRow 100000 nodes_pos colS e)))
    (fun e k => xr (ix2 (clampRow 100000 nodes_pos colS e) k)) (fun k => wr (ix2 k j))

end Cert.Gcn

end
-- ==== Proof.KernelAgg.lean ====
/-
  The normalised aggregate at an entry, and the columns of row numbers.

  Entry `(n, k)` of the aggregate is `δ n · (0 + ∑ over the edges e whose destination is n of δ (src e) · x (src e) k)`, with
  `src e` the row the gather reads for edge `e`.  A column built from a vector `v` has `v e`, read signed, as its row number
  `e`; wrapping adds the number of nodes to the negative entries only, so a row number that is a node is left alone,
  and the clamp leaves it alone as well.
-/
import proofs.«165516_j472446402806_2_alg».proof.Proof.KernelHost

noncomputable section

open scoped BigOperators

namespace Cert.KernelIdeal.GcnHost

open Cert.KernelIdeal Cert.KernelIdeal.Gen Idealize.ShloMosaic Idealize.ShloMosaic.TcCoe Idealize.SL.Sem
open Idealize.ShloMosaic.ValueIdx Idealize.ShloMosaic.RowScatter Cert.Gcn

/-! ## Columns -/

theorem asColumn_apply (v : IVec S1700000 32) (e : Fin 1700000) : asColumn v (ix2 e (0 : Fin 1)) = v (ix1 e) := by
  unfold asColumn
  exact broadcastInDim_apply _ bcast_S1700000_S1700000x1_0 v (ix2 e (0 : Fin 1)) (ix1 e) (fun a => match a with
    | ⟨0, _⟩ => by show e.val = if (1700000 : Nat) = 1 then 0 else e.val; rw [if_neg (by decide)])

theorem rowNo_asColumn (v : IVec S1700000 32) (e : Fin 1700000) : rowNo (asColumn v) e = (v (ix1 e)).toInt := by
  unfold rowNo
  rw [asColumn_apply]

/-- A word that reads as a non-negative integer is not below zero. -/
theorem slt_zero_of_nonneg (a : BitVec 32) (h : 0 ≤ a.toInt) : IntOp.cmpi .slt a 0#32 = 0#1 := by
  have hs : a.slt 0#32 = false := by
    rw [BitVec.slt_eq_decide]
    simp only [BitVec.toInt_zero, decide_eq_false_iff_not, not_lt]
    exact h
  simp only [IntOp.cmpi, hs]
  rfl

/-- Wrapping leaves a non-negative entry alone. -/
theorem wrapped_of_nonneg (v : IVec S1700000 32) (e : Fin 1700000) (h : 0 ≤ (v (ix1 e)).toInt) :
    wrapped v (ix1 e) = v (ix1 e) := by
  unfold wrapped
  rw [select_apply]
  have hz : (broadcastInDim S1700000 ![] bcast_S_S1700000 (constantI S_ 32 0#32)) (ix1 e) = 0#32 :=
    (broadcastInDim_apply _ bcast_S_S1700000 (constantI S_ 32 0#32) (ix1 e) ix0 (fun a => a.elim0)).trans rfl
  have hc : cmpi .slt v (broadcastInDim S1700000 ![] bcast_S_S1700000 (constantI S_ 32 0#32)) (ix1 e) = 0#1 := by
    show IntOp.cmpi .slt (v (ix1 e)) ((broadcastInDim S1700000 ![] bcast_S_S1700000 (constantI S_ 32 0#32)) (ix1 e)) = 0#1
    rw [hz]
    exact slt_zero_of_nonneg _ h
  rw [hc, select_zero]

/-- An edge whose destination is the node `n` has `n` as the row its wrapped and clamped destination names. -/
theorem dest_row (d6 : IVec S1700000 32) (e : Fin 1700000) (n : Fin 100000)
    (h : rowNo (asColumn d6) e = (n.val : Int)) : clampRow 100000 nodes_pos (asColumn (wrapped d6)) e = n := by
  rw [rowNo_asColumn] at h
  apply clampRow_of_rowNo
  rw [rowNo_asColumn, wrapped_of_nonneg d6 e (by rw [h]; exact Int.natCast_nonneg _), h]

/-! ## The aggregate at an entry -/

theorem wf_scatter32 : ScatterDims.WF ⟨2, ![100000, 32]⟩ ⟨2, ![1700000, 1]⟩ ⟨2, ![1700000, 32]⟩ [1] [0] [0] 1 :=
  scatter_S100000x32_S1700000x1_S1700000x32_1_0_0_1.wf
theorem wf_gather32 : GatherDims.WF ⟨2, ![100000, 32]⟩ ⟨2, ![1700000, 1]⟩ ⟨2, ![1700000, 32]⟩ [1] [0] [] [0] [] 1 ![1, 32] :=
  gather_S100000x32_S1700000x1_S1700000x32_1_0_n_n_0_1_132.wf
theorem scatter32_eq : scatter_S100000x32_S1700000x1_S1700000x32_1_0_0_1 = scatterRows 100000 1700000 32 wf_scatter32 := rfl
theorem gather32_eq : gather_S100000x32_S1700000x1_S1700000x32_1_0_n_n_0_1_132 = gatherRows 100000 1700000 32 wf_gather32 := rfl

theorem wide_apply (δ : FVec Ideal S100000 .f32) (n : Fin 100000) (k : Fin 32) : wide δ (ix2 n k) = δ (ix1 n) := by
  unfold wide
  refine (broadcastInDim_apply _ bcast_S100000x1_S100000x32_0_1 _ (ix2 n k) (ix2 n (0 : Fin 1)) (fun a => match a with
    | ⟨0, _⟩ => by show n.val = if (100000 : Nat) = 1 then 0 else n.val; rw [if_neg (by decide)]
    | ⟨1, _⟩ => by show 0 = if (1 : Nat) = 1 then 0 else k.val; rw [if_pos rfl])).trans ?_
  exact broadcastInDim_apply _ bcast_S100000_S100000x1_0 δ (ix2 n (0 : Fin 1)) (ix1 n) (fun a => match a with
    | ⟨0, _⟩ => by show n.val = if (100000 : Nat) = 1 then 0 else n.val; rw [if_neg (by decide)])

theorem zero32_apply (i : S100000x32.Idx) :
    (broadcastInDim S100000x32 ![] bcast_S_S100000x32 (constant (F := Ideal) S_ .f32 0x00000000#32)) i
      = Ideal.ofBits .f32 0x00000000#32 :=
  (broadcastInDim_apply _ bcast_S_S100000x32 (constant (F := Ideal) S_ .f32 0x00000000#32) i ix0 (fun a => a.elim0)).trans rfl

/-- Entry `(n, k)` after the scatter-add: the entry before plus the rows whose destination is `n`. -/
theorem scattered_apply (z : FVec Ideal S100000x32 .f32) (col : IVec S1700000x1 32) (u : FVec Ideal S1700000x32 .f32)
    (n : Fin 100000) (k : Fin 32) :
    Host.scatterAdd scatter_S100000x32_S1700000x1_S1700000x32_1_0_0_1 z col u (ix2 n k)
      = z (ix2 n k) + ∑ e ∈ Finset.univ.filter (fun e : Fin 1700000 => rowNo col e = (n.val : Int)), u (ix2 e k) := by
  rw [scatter32_eq]
  exact hostScatterAddRows_apply wf_scatter32 z col u n k

/-- Row `e` of the gathered, scaled features: the source's factor times the source's feature. -/
theorem gathered_apply (δ : FVec Ideal S100000 .f32) (col : IVec S1700000x1 32) (x0 : FVec Ideal S100000x32 .f32)
    (e : Fin 1700000) (k : Fin 32) :
    Host.gather gather_S100000x32_S1700000x1_S1700000x32_1_0_n_n_0_1_132 (mulf (wide δ) x0) col (ix2 e k)
      = δ (ix1 (clampRow 100000 nodes_pos col e)) * x0 (ix2 (clampRow 100000 nodes_pos col e) k) := by
  rw [gather32_eq]
  refine (gatherRows_apply wf_gather32 col e k nodes_pos (mulf (wide δ) x0)).trans ?_
  show wide δ (ix2 (clampRow 100000 nodes_pos col e) k) * x0 (ix2 (clampRow 100000 nodes_pos col e) k) = _
  rw [wide_apply]

/-- Entry `(n, k)` of the normalised aggregate. -/
theorem aggregate_apply (δ : FVec Ideal S100000 .f32) (s3 d6 : IVec S1700000 32) (x0 : FVec Ideal S100000x32 .f32)
    (n : Fin 100000) (k : Fin 32) :
    aggregate δ s3 d6 x0 (ix2 n k)
      = δ (ix1 n) * (Ideal.ofBits .f32 0x00000000#32
          + ∑ e ∈ Finset.univ.filter (fun e : Fin 1700000 => rowNo (asColumn d6) e = (n.val : Int)),
              δ (ix1 (clampRow 100000 nodes_pos (asColumn (wrapped s3)) e))
                * x0 (ix2 (clampRow 100000 nodes_pos (asColumn (wrapped s3)) e) k)) := by
  unfold aggregate
  show wide δ (ix2 n k) * Host.scatterAdd scatter_S100000x32_S1700000x1_S1700000x32_1_0_0_1
      (broadcastInDim S100000x32 ![] bcast_S_S100000x32 (constant (F := Ideal) S_ .f32 0x00000000#32)) (asColumn d6)
      (Host.gather gather_S100000x32_S1700000x1_S1700000x32_1_0_n_n_0_1_132 (mulf (wide δ) x0) (asColumn (wrapped s3)))
      (ix2 n k) = _
  rw [wide_apply, scattered_apply, zero32_apply]
  refine congrArg (fun t => δ (ix1 n) * (Ideal.ofBits .f32 0x00000000#32 + t)) (Finset.sum_congr rfl fun e _ => ?_)
  exact gathered_apply δ (asColumn (wrapped s3)) x0 e k

end Cert.KernelIdeal.GcnHost

end
-- ==== Proof.Factors.lean ====
/-
  The normalising factor of a node is a real number.

  At a node the factor is `1 / sqrt d` where the degree `d` is positive and `0` elsewhere.  Whatever extended real `d`
  is, this is real: if `0 < d` then `d` is `⊤`, whose inverse square root is `0`, or a positive real `r`, whose inverse
  square root is the real `(sqrt r)⁻¹`; otherwise the value is the `0` of the other branch.
-/
import proofs.«165516_j472446402806_2_alg».proof.Proof.KernelHost

noncomputable section

namespace Cert.KernelIdeal.GcnHost

open Cert.KernelIdeal Idealize.ShloMosaic Idealize.ShloMosaic.ValueIdx

/-- The choice between `1 / sqrt d` (where `0 < d`) and `0` is a real number, for every extended real `d`. -/
theorem select_rsqrt_real (d : EReal) :
    ∃ r : ℝ, Scalar.select (Ideal.cmp .ogt d 0) (Ideal.rsqrt d) (0 : EReal) = (r : EReal) := by
  by_cases hb : Ideal.cmp .ogt d 0 = 1#1
  · rw [hb, select_one]
    have hpos : (0 : EReal) < d := by
      by_contra hn
      simp [Ideal.cmp, hn] at hb
    induction d using EReal.rec with
    | bot => simp at hpos
    | coe r =>
      have hr : 0 < r := by exact_mod_cast hpos
      refine ⟨(Real.sqrt r)⁻¹, ?_⟩
      rw [Ideal.rsqrt_coe, if_neg (not_lt.2 hr.le), if_neg hr.ne']
    | top => exact ⟨0, by rw [Ideal.rsqrt_top, EReal.coe_zero]⟩
  · rw [eq_zero_of_ne_one hb, select_zero]
    exact ⟨0, EReal.coe_zero.symm⟩

/-- The all-zero vector at an index. -/
theorem zeros_apply (i : S100000.Idx) : zeros i = (0 : EReal) := by
  unfold zeros
  rw [broadcastInDim_apply _ _ _ i ix0 (fun a => a.elim0), constant_apply, Ideal.ofBits_zero_f32]

/-- One entry of "`1 / sqrt δ` where `δ` exceeds `z`, else `z`", for arbitrary vectors `δ` and `z`. -/
theorem select_entry {s : Shape} (δ z : FVec Ideal s .f32) (i : s.Idx) :
    select (cmpf .ogt δ z) (Host.rsqrt δ) z i
      = Scalar.select (Ideal.cmp .ogt (δ i) (z i)) (Ideal.rsqrt (δ i)) (z i) := rfl

/-- Every node's factor is a real number. -/
theorem factors_real (d6 : IVec S1700000 32) (i : S100000.Idx) : ∃ r : ℝ, factors d6 i = (r : EReal) := by
  unfold factors
  rw [select_entry, zeros_apply]
  generalize degree d6 i = d
  exact select_rsqrt_real d

end Cert.KernelIdeal.GcnHost

end
-- ==== Proof.RefHidden.lean ====
/-
  The reference's aggregated hidden layer, read at an entry.

  The reference multiplies every node's feature row by the first weight matrix, gathers the product's rows at the
  edges' sources, scales row `e` by the product of its two endpoints' normalising factors, and scatter-adds the rows
  at the edges' destinations.  So entry `(n, j)` of the result is zero plus the sum, over the edges `e` whose
  destination is `n`, of `(∑ k, x (src e) k · W1 k j) · (dinv (src e) · dinv (dst' e))`, where `src e` and `dst' e` are the
  rows the two gathers read (the edge's endpoints, wrapped when negative, clamped into the node range).  For an edge
  whose destination IS the node `n` the row `dst' e` is `n` itself: a row number in range is neither wrapped nor moved
  by the clamp.
-/
import proofs.«165516_j472446402806_2_alg».proof.Proof.RefRead
import proofs.«165516_j472446402806_2_alg».proof.Proof.LibRowScatter
import proofs.«165516_j472446402806_2_alg».proof.Proof.AggLaw

noncomputable section

open scoped BigOperators

namespace Cert.ReferenceIdeal.GcnHidden

open Cert.ReferenceIdeal Cert.ReferenceIdeal.Gen Cert.ReferenceIdeal.ReadP Idealize.ShloMosaic Idealize.ShloMosaic.ValueIdx
open Idealize.ShloMosaic.RowScatter Cert.Gcn

variable (x0 : (⟨S100000x32, .f32⟩ : BufTy).Contents (Elt Ideal)) (x1 : (⟨S2x1600000, .i32⟩ : BufTy).Contents (Elt Ideal))
  (x2 : (⟨S32x64, .f32⟩ : BufTy).Contents (Elt Ideal))

/-! ## The three dimension-number records are the row forms -/

theorem wf_scatter64 : ScatterDims.WF ⟨2, ![100000, 64]⟩ ⟨2, ![1700000, 1]⟩ ⟨2, ![1700000, 64]⟩ [1] [0] [0] 1 :=
  scatter_S100000x64_S1700000x1_S1700000x64_1_0_0_1.wf
theorem wf_gather64 :
    GatherDims.WF ⟨2, ![100000, 64]⟩ ⟨2, ![1700000, 1]⟩ ⟨2, ![1700000, 64]⟩ [1] [0] [] [0] [] 1 ![1, 64] :=
  gather_S100000x64_S1700000x1_S1700000x64_1_0_n_n_0_1_164.wf
theorem wf_gather1 : GatherDims.WF ⟨1, ![100000]⟩ ⟨2, ![1700000, 1]⟩ ⟨1, ![1700000]⟩ [] [0] [] [0] [] 1 ![1] :=
  gather_S100000_S1700000x1_S1700000_n_0_n_n_0_1_1.wf

theorem scatter64_eq : scatter_S100000x64_S1700000x1_S1700000x64_1_0_0_1 = scatterRows 100000 1700000 64 wf_scatter64 := rfl
theorem gather64_eq : gather_S100000x64_S1700000x1_S1700000x64_1_0_n_n_0_1_164 = gatherRows 100000 1700000 64 wf_gather64 :=
  rfl
theorem gather1_eq : gather_S100000_S1700000x1_S1700000_n_0_n_n_0_1_1 = gatherCol 100000 1700000 wf_gather1 := rfl

/-! ## The stages at an entry -/

/-- The scatter starts from zeros. -/
theorem zeros_apply (i : S100000x64.Idx) : val_main_v42 (F := Ideal) i = Ideal.ofBits .f32 0x00000000#32 := by
  rw [val_main_v42_apply]; rfl

/-- Row `e` of the gathered product: the source's feature row against column `j` of the weight matrix. -/
theorem gathered_apply (e : Fin 1700000) (j : Fin 64) :
    val_main_v38 (F := Ideal) x0 x1 x2 (ix2 e j)
      = ∑ k : Fin 32, x0 (ix2 (clampRow 100000 nodes_pos (val_main_v37 (F := Ideal) x1) e) k) * x2 (ix2 k j) := by
  unfold val_main_v38
  rw [gather64_eq]
  refine (gatherRows_apply wf_gather64 (val_main_v37 (F := Ideal) x1) e j nodes_pos (val_main_v31 (F := Ideal) x0 x2)).trans ?_
  rw [val_main_v31_apply]
  refine Finset.sum_congr rfl fun k _ => ?_
  have el : lidx_main_v31 (ix2 (clampRow 100000 nodes_pos (val_main_v37 (F := Ideal) x1) e) j) k
      = ix2 (clampRow 100000 nodes_pos (val_main_v37 (F := Ideal) x1) e) k :=
    funext fun a => Fin.ext (by match a with | ⟨0, _⟩ => rfl | ⟨1, _⟩ => rfl)
  have er : ridx_main_v31 (ix2 (clampRow 100000 nodes_pos (val_main_v37 (F := Ideal) x1) e) j) k = ix2 k j :=
    funext fun a => Fin.ext (by match a with | ⟨0, _⟩ => rfl | ⟨1, _⟩ => rfl)
  rw [el, er]

/-- Row `e` of the scale: the product of the two endpoints' factors. -/
theorem scale_apply (e : Fin 1700000) (j : Fin 64) :
    val_main_v40 (F := Ideal) x1 (ix2 e j)
      = val_main_v15 (F := Ideal) x1 (ix1 (clampRow 100000 nodes_pos (val_main_v21 (F := Ideal) x1) e))
        * val_main_v15 (F := Ideal) x1 (ix1 (clampRow 100000 nodes_pos (val_main_v28 (F := Ideal) x1) e)) := by
  rw [val_main_v40_apply, val_main_v39_apply, val_main_v30_apply]
  have hi : idx_main_v39 (idx_main_v40 (ix2 e j)) = ix1 e :=
    funext fun a => Fin.ext (by match a with | ⟨0, _⟩ => rfl)
  rw [hi]
  show val_main_v22 (F := Ideal) x1 (ix1 e) * val_main_v29 (F := Ideal) x1 (ix1 e) = _
  unfold val_main_v22 val_main_v29
  rw [gather1_eq, gatherCol_apply nodes_pos wf_gather1, gatherCol_apply nodes_pos wf_gather1]

/-- Entry `(n, j)` of the aggregate. -/
theorem agg_apply (n : Fin 100000) (j : Fin 64) :
    val_main_v44 (F := Ideal) x0 x1 x2 (ix2 n j)
      = Ideal.ofBits .f32 0x00000000#32
        + ∑ e ∈ Finset.univ.filter (fun e : Fin 1700000 => rowNo (val_main_v43 (F := Ideal) x1) e = (n.val : Int)),
            (∑ k : Fin 32, x0 (ix2 (clampRow 100000 nodes_pos (val_main_v37 (F := Ideal) x1) e) k) * x2 (ix2 k j))
              * (val_main_v15 (F := Ideal) x1 (ix1 (clampRow 100000 nodes_pos (val_main_v21 (F := Ideal) x1) e))
                * val_main_v15 (F := Ideal) x1 (ix1 (clampRow 100000 nodes_pos (val_main_v28 (F := Ideal) x1) e))) := by
  unfold val_main_v44
  rw [scatter64_eq, hostScatterAddRows_apply wf_scatter64, zeros_apply]
  refine congrArg (fun t => Ideal.ofBits .f32 0x00000000#32 + t) (Finset.sum_congr rfl fun e _ => ?_)
  rw [val_main_v41_apply]
  show val_main_v38 (F := Ideal) x0 x1 x2 (ix2 e j) * val_main_v40 (F := Ideal) x1 (ix2 e j) = _
  rw [gathered_apply, scale_apply]

end Cert.ReferenceIdeal.GcnHidden

end
-- ==== Proof.Bridge.lean ====
/-
  The two programs compute one hidden layer.

  The kernel's program multiplies the normalised aggregate of the scaled feature rows by the first weight matrix and
  adds the bias; the reference aggregates the rows of `x · W1`, each scaled by the product of its endpoints' factors, and
  adds the bias.  Both read the edge list through the same two columns and use the same factors, and every entry of
  the features, of the weight matrix and of the factors is a real number, so the two hidden layers are equal entry by
  entry (the law of aggregating before or after a linear map).
-/
import proofs.«165516_j472446402806_2_alg».proof.Proof.Spec
import proofs.«165516_j472446402806_2_alg».proof.Proof.GcnLaw
import proofs.«165516_j472446402806_2_alg».proof.Proof.KernelAgg
import proofs.«165516_j472446402806_2_alg».proof.Proof.Factors
import proofs.«165516_j472446402806_2_alg».proof.Proof.RefHidden
import Idealize.ShloMosaic.PureOps.Ideal.Laws

noncomputable section

open scoped BigOperators

namespace Cert.Gcn.Bridge

open Idealize.ShloMosaic Idealize.ShloMosaic.ValueIdx Idealize.ShloMosaic.RowScatter Cert.Gcn
open Cert.ReferenceIdeal.ReadP Cert.KernelIdeal.GcnHost

variable (x0 : (⟨2, ![100000, 32]⟩ : Shape).Idx → EReal) (x1 : IVec ⟨2, ![2, 1600000]⟩ 32)
  (x2 : (⟨2, ![32, 64]⟩ : Shape).Idx → EReal) (x3 : (⟨1, ![64]⟩ : Shape).Idx → EReal)

/-! ## Both programs read the edge list through the same columns, and use the same factors -/

/-- The column of destinations. -/
theorem dest_column : val_main_v43 (F := Ideal) x1 = asColumn (val_main_v6 (F := Ideal) x1) := rfl
/-- The column of sources, wrapped: the reference builds it three times. -/
theorem source_column : val_main_v37 (F := Ideal) x1 = asColumn (wrapped (val_main_v3 (F := Ideal) x1)) := rfl
theorem source_column' : val_main_v21 (F := Ideal) x1 = asColumn (wrapped (val_main_v3 (F := Ideal) x1)) := rfl
/-- The column of destinations, wrapped. -/
theorem dest_column_wrapped : val_main_v28 (F := Ideal) x1 = asColumn (wrapped (val_main_v6 (F := Ideal) x1)) := rfl
/-- The normalising factors. -/
theorem factors_eq : val_main_v15 (F := Ideal) x1 = factors (val_main_v6 (F := Ideal) x1) := rfl

/-! ## The hidden layers -/

theorem hidden_eq (hx : ∀ i, ∃ r : ℝ, x0 i = (r : EReal)) (hw : ∀ i, ∃ r : ℝ, x2 i = (r : EReal)) :
    hidden (aggregate (factors (val_main_v6 (F := Ideal) x1)) (val_main_v3 (F := Ideal) x1) (val_main_v6 (F := Ideal) x1) x0)
        x2 x3
      = fun i => val_main_v44 (F := Ideal) x0 x1 x2 i + x3 (ix1 (i 1)) := by
  funext i
  obtain ⟨n, j, rfl⟩ : ∃ (n : Fin 100000) (j : Fin 64), i = ix2 n j := ⟨i 0, i 1, eq_ix2 i⟩
  show hiddenAt _ x2 x3 n j = val_main_v44 (F := Ideal) x0 x1 x2 (ix2 n j) + x3 (ix1 j)
  unfold hiddenAt
  refine congrArg (fun t => t + x3 (ix1 j)) ?_
  rw [Cert.ReferenceIdeal.GcnHidden.agg_apply, dest_column, source_column, source_column', dest_column_wrapped, factors_eq]
  simp only [aggregate_apply]
  exact hidden_law (factors (val_main_v6 (F := Ideal) x1)) x0 x2 (asColumn (wrapped (val_main_v3 (F := Ideal) x1)))
    (asColumn (val_main_v6 (F := Ideal) x1)) (asColumn (wrapped (val_main_v6 (F := Ideal) x1)))
    (fun i => factors_real _ i) hx hw (fun e n h => dest_row _ e n h) _ Ideal.ofBits_zero_f32 n j

end Cert.Gcn.Bridge

end
-- ==== Proof.lean ====
/-
  A two-layer graph network over 100000 nodes and 1700000 edges (the edge list followed by one self loop per node): read
  with exact arithmetic on the extended reals, the kernel program and the reference compute the same output, entry by entry.

  Both programs read the edge list through the same two columns (sources and destinations) and give every node the
  factor `dinv n = 1 / sqrt (degree n)` (zero where the degree is not positive).  The kernel program forms
  `a n = dinv n · ∑ over the edges e ending in n of dinv (src e) · x (src e)` (a row of 32 numbers) and hands it to a kernel
  that computes `tanh (a · W1 + b1) · W2 + b2` block by block (twenty blocks of 5000 nodes).  The reference forms
  `∑ over the edges e ending in n of (x (src e) · W1) · (dinv (src e) · dinv (dst e))`, adds `b1`, and applies
  `tanh (·) · W2 + b2`.  The two hidden layers agree because a finite sum may be taken in either order and a real factor
  moves across it; this uses that every feature and every weight is a real number (the precondition) and that every
  factor is one (`1 / sqrt` of a positive extended real is real, also at `+∞`).  For an edge that ends in `n` the
  reference's destination factor is `dinv n`: a destination that is a node is neither wrapped nor clamped.

  Each of the three programs runs to the end and leaves its arguments as they were (for the reference this is its run with
  the result dropped), and passing from the kernel program as written to its exact-arithmetic reading rewrote no operation.
-/
import proofs.«165516_j472446402806_2_alg».proof.Defs
import proofs.«165516_j472446402806_2_alg».proof.Proof.Gen.Kernel
import proofs.«165516_j472446402806_2_alg».proof.Proof.Gen.Kernel.Skeleton
import proofs.«165516_j472446402806_2_alg».proof.Proof.Gen.Kernel.Launch
import proofs.«165516_j472446402806_2_alg».proof.Proof.Gen.Kernel.Points
import proofs.«165516_j472446402806_2_alg».proof.Proof.Gen.Kernel.Frame
import proofs.«165516_j472446402806_2_alg».proof.Proof.Gen.KernelIdeal
import proofs.«165516_j472446402806_2_alg».proof.Proof.Gen.KernelIdeal.Skeleton
import proofs.«165516_j472446402806_2_alg».proof.Proof.Gen.KernelIdeal.Launch
import proofs.«165516_j472446402806_2_alg».proof.Proof.Gen.KernelIdeal.Points
import proofs.«165516_j472446402806_2_alg».proof.Proof.Gen.KernelIdeal.Frame
import proofs.«165516_j472446402806_2_alg».proof.Proof.Gen.ReferenceIdeal
import proofs.«165516_j472446402806_2_alg».proof.Proof.Gen.Pre_finite_inputs
import proofs.«165516_j472446402806_2_alg».proof.Proof.Gen.KernelIdeal.Value
import proofs.«165516_j472446402806_2_alg».proof.Proof.RefRun
import proofs.«165516_j472446402806_2_alg».proof.Proof.RefRead
import proofs.«165516_j472446402806_2_alg».proof.Proof.RefTail
import proofs.«165516_j472446402806_2_alg».proof.Proof.Finite
import proofs.«165516_j472446402806_2_alg».proof.Proof.KernelValue
import proofs.«165516_j472446402806_2_alg».proof.Proof.KernelHost
import proofs.«165516_j472446402806_2_alg».proof.Proof.Bridge
import Idealize.ShloMosaic.Adequacy
import Idealize.ShloMosaic.Init

noncomputable section

namespace Cert.Proof

open Idealize.ShloMosaic Idealize.SL.Sem Idealize.ShloMosaic.TcCoe

/-- The kernel program runs and leaves its arguments as they were. -/
theorem frame_kernel : Cert.frame_Kernel := fun m ρ _ => Cert.Kernel.Gen.frame m ρ

/-- So does its exact-arithmetic reading. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation of the kernel program was rewritten on the way to its exact-arithmetic reading. -/
theorem preserves : Cert.preserves_Kernel_KernelIdeal := trivial

/-- From memories that agree on the arguments, both programs end with the same result: the kernel's blocks make up
    `tanh (a · W1 + b1) · W2 + b2` over the normalised aggregate `a`, the reference's last operations are the same output
    layer over its own hidden layer, and the two hidden layers are equal. -/
theorem algebraic : Cert.algebraic_KernelIdeal_ReferenceIdeal := by
  intro m ρ m' ρ' hpre hagree
  refine ⟨_, Cert.KernelIdeal.GcnValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨hx, hw⟩ := Cert.Gcn.Finite.finite_of_pre _ _ _ _ _ _ (hpre c)
  rw [Cert.ReferenceIdeal.ReadP.val_main_v52_eq, Cert.ReferenceIdeal.GcnTail.out_eq,
    (hagree c).1, (hagree c).2.1, (hagree c).2.2.1, (hagree c).2.2.2.1, (hagree c).2.2.2.2.1, (hagree c).2.2.2.2.2,
    Cert.KernelIdeal.GcnHost.V_aggregate, Cert.Gcn.Bridge.hidden_eq _ _ _ _ hx hw]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
